-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x64 : Shape := ⟨2, ![1000000, 64]⟩
abbrev S64x64 : Shape := ⟨2, ![64, 64]⟩
abbrev S256x128 : Shape := ⟨2, ![256, 128]⟩
abbrev S128 : Shape := ⟨1, ![128]⟩
abbrev S128x128 : Shape := ⟨2, ![128, 128]⟩
abbrev S2x1000000 : Shape := ⟨2, ![2, 1000000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S64x64 : S_.BroadcastsInDim S64x64 (![] : Fin 0 → Fin S64x64.rank)
  reducesTo_S64x64_S_d0_1 : S64x64.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128 .f32) (main_arg8 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128 .f32) (main_arg8 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S100000x64 .f32) (main_arg1 : FVec F S1000000x64 .f32) (main_arg2 : FVec F S64x64 .f32) (main_arg3 : FVec F S256x128 .f32) (main_arg4 : FVec F S128 .f32) (main_arg5 : FVec F S128x128 .f32) (main_arg6 : FVec F S128 .f32) (main_arg7 : FVec F S128 .f32) (main_arg8 : FVec F S128 .f32) (main_arg9 : IVec S2x1000000 32) (main_arg10 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_v13 main_v16
-- ==== Kernel.lean ====
abbrev S100000x64 : Shape := ⟨2, ![100000, 64]⟩
abbrev S1000000x64 : Shape := ⟨2, ![1000000, 64]⟩
abbrev S64x64 : Shape := ⟨2, ![64, 64]⟩
abbrev S256x128 : Shape := ⟨2, ![256, 128]⟩
abbrev S128 : Shape := ⟨1, ![128]⟩
abbrev S128x128 : Shape := ⟨2, ![128, 128]⟩
abbrev S2x1000000 : Shape := ⟨2, ![2, 1000000]⟩
abbrev S100000 : Shape := ⟨1, ![100000]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S64x128 : Shape := ⟨2, ![64, 128]⟩
abbrev S1x128 : Shape := ⟨2, ![1, 128]⟩
abbrev S1000000x128 : Shape := ⟨2, ![1000000, 128]⟩
abbrev S5000x64 : Shape := ⟨2, ![5000, 64]⟩
abbrev S5000x128 : Shape := ⟨2, ![5000, 128]⟩
abbrev S5000 : Shape := ⟨1, ![5000]⟩
abbrev S5000x1 : Shape := ⟨2, ![5000, 1]⟩

abbrev nBuf : Space → Nat
  | .hbm => 60
  | .vmem => 19
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S64x64, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S2x1000000, .i32⟩
  | .hbm, ⟨10, _⟩ => ⟨S100000, .i32⟩
  | .hbm, ⟨11, _⟩ => ⟨S1x1000000, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x64, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000, .i32⟩
  | .hbm, ⟨42, _⟩ => ⟨S_, .i32⟩
  | .hbm, ⟨43, _⟩ => ⟨S1000000, .i32⟩
  | .hbm, ⟨44, _⟩ => ⟨S1000000, .i1⟩
  | .hbm, ⟨45, _⟩ => ⟨S_, .i32⟩
  | .hbm, ⟨46, _⟩ => ⟨S1000000, .i32⟩
  | .hbm, ⟨47, _⟩ => ⟨S1000000, .i32⟩
  | .hbm, ⟨48, _⟩ => ⟨S1000000, .i32⟩
  | .hbm, ⟨49, _⟩ => ⟨S1000000x1, .i32⟩
  | .hbm, ⟨50, _⟩ => ⟨S1000000x64, .f32⟩
  | .hbm, ⟨51, _⟩ => ⟨S64x128, .f32⟩
  | .hbm, ⟨52, _⟩ => ⟨S64x128, .f32⟩
  | .hbm, ⟨53, _⟩ => ⟨S64x128, .f32⟩
  | .hbm, ⟨54, _⟩ => ⟨S64x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1000000x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S5000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S256x128_S64x128_0_0 : S256x128.Slices ![0, 0] S64x128
  slices_S256x128_S64x128_64_0 : S256x128.Slices ![64, 0] S64x128
  slices_S256x128_S64x128_128_0 : S256x128.Slices ![128, 0] S64x128
  slices_S256x128_S64x128_192_0 : S256x128.Slices ![192, 0] S64x128
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  reduces_S5000x128_S5000 : S5000x128.Reduces [1] S5000
  shapeCasts_S5000_S5000x1 : S5000.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  gather_S100000x64_S1000000x1_S1000000x64_1_0_n_n_0_1_164_wf : GatherDims.WF S100000x64 S1000000x1 S1000000x64 [1] [0] [] [0] [] 1 ![1, 64]
  gather_S100000_S1000000x1_S1000000_n_0_n_n_0_1_1_wf : GatherDims.WF S100000 S1000000x1 S1000000 [] [0] [] [0] [] 1 ![1]
  gather_S64x64_S1000000x1_S1000000x64_1_0_n_n_0_1_164_wf : GatherDims.WF S64x64 S1000000x1 S1000000x64 [1] [0] [] [0] [] 1 ![1, 64]
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S1000000x64.size a
  hwx0_0 : ∀ i : grid0.Coords, EltTy.bits .f32 = 32 ∨ (Rect.block (s := S1000000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S1000000x64.size a
  hwx0_1 : ∀ i : grid0.Coords, EltTy.bits .f32 = 32 ∨ (Rect.block (s := S1000000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S1000000x64.size a
  hwx0_2 : ∀ i : grid0.Coords, EltTy.bits .f32 = 32 ∨ (Rect.block (s := S1000000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S1000000x64.size a
  hwx0_3 : ∀ i : grid0.Coords, EltTy.bits .f32 = 32 ∨ (Rect.block (s := S1000000x64) S5000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x128.size a
  hwx0_7 : ∀ i : grid0.Coords, EltTy.bits .f32 = 32 ∨ (Rect.block (s := S64x128) S64x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S5000x128.size a ≤ S1000000x128.size a
  hwx0_13 : ∀ i : grid0.Coords, EltTy.bits .f32 = 32 ∨ (Rect.block (s := S1000000x128) S5000x128.size (cc0_transform_13 i) (hinb0_13 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S64x64_S1000000x1_S1000000x64_1_0_n_n_0_1_164 : GatherDims S64x64 S1000000x1 S1000000x64 where
  offsetDims := [1]
  collapsedSliceDims := [0]
  operandBatchingDims := []
  startIndicesBatchingDims := []
  startIndexMap := [0]
  indexVectorDim := 1
  sliceSizes := ![1, 64]
  wf := gather_S64x64_S1000000x1_S1000000x64_1_0_n_n_0_1_164_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S64x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v37) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v38) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v39) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v40) S5000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S100000x64 : Shape := ⟨2, ![100000, 64]⟩
abbrev S1000000x64 : Shape := ⟨2, ![1000000, 64]⟩
abbrev S64x64 : Shape := ⟨2, ![64, 64]⟩
abbrev S256x128 : Shape := ⟨2, ![256, 128]⟩
abbrev S128 : Shape := ⟨1, ![128]⟩
abbrev S128x128 : Shape := ⟨2, ![128, 128]⟩
abbrev S2x1000000 : Shape := ⟨2, ![2, 1000000]⟩
abbrev S100000 : Shape := ⟨1, ![100000]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x256 : Shape := ⟨2, ![1000000, 256]⟩
abbrev S1000000x128 : Shape := ⟨2, ![1000000, 128]⟩
abbrev S1x128 : Shape := ⟨2, ![1, 128]⟩

abbrev nBuf : Space → Nat
  | .hbm => 95
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S64x64, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S2x1000000, .i32⟩
  | .hbm, ⟨10, _⟩ => ⟨S100000, .i32⟩
  | .hbm, ⟨11, _⟩ => ⟨S1x1000000, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x64, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000, .i32⟩
  | .hbm, ⟨42, _⟩ => ⟨S_, .i32⟩
  | .hbm, ⟨43, _⟩ => ⟨S1000000, .i32⟩
  | .hbm, ⟨44, _⟩ => ⟨S1000000, .i1⟩
  | .hbm, ⟨45, _⟩ => ⟨S_, .i32⟩
  | .hbm, ⟨46, _⟩ => ⟨S1000000, .i32⟩
  | .hbm, ⟨47, _⟩ => ⟨S1000000, .i32⟩
  | .hbm, ⟨48, _⟩ => ⟨S1000000, .i32⟩
  | .hbm, ⟨49, _⟩ => ⟨S1000000x1, .i32⟩
  | .hbm, ⟨50, _⟩ => ⟨S1000000x64, .f32⟩
  | .hbm, ⟨51, _⟩ => ⟨S1000000x256, .f32⟩
  | .hbm, ⟨52, _⟩ => ⟨S1000000x128, .f32⟩
  | .hbm, ⟨53, _⟩ => ⟨S1x128, .f32⟩
  | .hbm, ⟨54, _⟩ => ⟨S1000000x128, .f32⟩
  | .hbm, ⟨55, _⟩ => ⟨S1000000x128, .f32⟩
  | .hbm, ⟨56, _⟩ => ⟨S_, .f32⟩
  | .hbm, ⟨57, _⟩ => ⟨S1000000x128, .f32⟩
  | .hbm, ⟨58, _⟩ => ⟨S1000000x128, .f32⟩
  | .hbm, ⟨59, _⟩ => ⟨S1000000x128, .f32⟩
  | .hbm, ⟨60, _⟩ => ⟨S1x128, .f32⟩
  | .hbm, ⟨61, _⟩ => ⟨S1000000x128, .f32⟩
  | .hbm, ⟨62, _⟩ => ⟨S1000000x128, .f32⟩
  | .hbm, ⟨63, _⟩ => ⟨S_, .f32⟩
  | .hbm, ⟨64, _⟩ => ⟨S1000000x128, .f32⟩
  | .hbm, ⟨65, _⟩ => ⟨S1000000x128, .f32⟩
  | .hbm, ⟨66, _⟩ => ⟨S_, .f32⟩
  | .hbm, ⟨67, _⟩ => ⟨S1000000, .f32⟩
  | .hbm, ⟨68, _⟩ => ⟨S1000000x1, .f32⟩
  | .hbm, ⟨69, _⟩ => ⟨S_, .f32⟩
  | .hbm, ⟨70, _⟩ => ⟨S1000000x1, .f32⟩
  | .hbm, ⟨71, _⟩ => ⟨S1000000x1, .f32⟩
  | .hbm, ⟨72, _⟩ => ⟨S1000000x128, .f32⟩
  | .hbm, ⟨73, _⟩ => ⟨S1000000x128, .f32⟩
  | .hbm, ⟨74, _⟩ => ⟨S1000000x128, .f32⟩
  | .hbm, ⟨75, _⟩ => ⟨S_, .f32⟩
  | .hbm, ⟨76, _⟩ => ⟨S1000000, .f32⟩
  | .hbm, ⟨77, _⟩ => ⟨S1000000x1, .f32⟩
  | .hbm, ⟨78, _⟩ => ⟨S_, .f32⟩
  | .hbm, ⟨79, _⟩ => ⟨S1000000x1, .f32⟩
  | .hbm, ⟨80, _⟩ => ⟨S1000000x1, .f32⟩
  | .hbm, ⟨81, _⟩ => ⟨S1000000x128, .f32⟩
  | .hbm, ⟨82, _⟩ => ⟨S1000000x128, .f32⟩
  | .hbm, ⟨83, _⟩ => ⟨S_, .f32⟩
  | .hbm, ⟨84, _⟩ => ⟨S1000000x1, .f32⟩
  | .hbm, ⟨85, _⟩ => ⟨S1000000x1, .f32⟩
  | .hbm, ⟨86, _⟩ => ⟨S1000000x1, .f32⟩
  | .hbm, ⟨87, _⟩ => ⟨S1000000x128, .f32⟩
  | .hbm, ⟨88, _⟩ => ⟨S1000000x128, .f32⟩
  | .hbm, ⟨89, _⟩ => ⟨S1x128, .f32⟩
  | .hbm, ⟨90, _⟩ => ⟨S1000000x128, .f32⟩
  | .hbm, ⟨91, _⟩ => ⟨S1000000x128, .f32⟩
  | .hbm, ⟨92, _⟩ => ⟨S1x128, .f32⟩
  | .hbm, ⟨93, _⟩ => ⟨S1000000x128, .f32⟩
  | .hbm, ⟨94, _⟩ => ⟨S1000000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call0_cst : Ref sig .tc := ⟨.hbm, 56, rfl⟩
abbrev main_call0_v0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call1_cst : Ref sig .tc := ⟨.hbm, 63, rfl⟩
abbrev main_call1_v0 : Ref sig .tc := ⟨.hbm, 64, rfl⟩
abbrev main_v42 : Ref sig .tc := ⟨.hbm, 65, rfl⟩
abbrev main_cst : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x64_S1000000x64_S1000000x256_d1 : Shape.Concatenates [S1000000x64, S1000000x64, S1000000x64, S1000000x64] S1000000x256 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  reducesTo_S1000000x128_S1000000_d1 : S1000000x128.ReducesTo [1] S1000000
  h_S_ : 0 < S_.numel
  bcast_S_S1000000x1 : S_.BroadcastsInDim S1000000x1 (![] : Fin 0 → Fin S1000000x1.rank)
  bcast_S1000000x1_S1000000x128_0_1 : S1000000x1.BroadcastsInDim S1000000x128 (![0, 1] : Fin 2 → Fin S1000000x128.rank)
  gather_S100000x64_S1000000x1_S1000000x64_1_0_n_n_0_1_164_wf : GatherDims.WF S100000x64 S1000000x1 S1000000x64 [1] [0] [] [0] [] 1 ![1, 64]
  gather_S100000_S1000000x1_S1000000_n_0_n_n_0_1_1_wf : GatherDims.WF S100000 S1000000x1 S1000000 [] [0] [] [0] [] 1 ![1]
  gather_S64x64_S1000000x1_S1000000x64_1_0_n_n_0_1_164_wf : GatherDims.WF S64x64 S1000000x1 S1000000x64 [1] [0] [] [0] [] 1 ![1, 64]
  dot_S1000000x256_S256x128_S1000000x128_1_0_0_1_n_n_wf : DotDims.WF S1000000x256 S256x128 S1000000x128 [1] [0] [0] [1] [] []
  dot_S1000000x128_S128x128_S1000000x128_1_0_0_1_n_n_wf : DotDims.WF S1000000x128 S128x128 S1000000x128 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S64x64_S1000000x1_S1000000x64_1_0_n_n_0_1_164 : GatherDims S64x64 S1000000x1 S1000000x64 where
  offsetDims := [1]
  collapsedSliceDims := [0]
  operandBatchingDims := []
  startIndicesBatchingDims := []
  startIndexMap := [0]
  indexVectorDim := 1
  sliceSizes := ![1, 64]
  wf := gather_S64x64_S1000000x1_S1000000x64_1_0_n_n_0_1_164_wf
def dot_S1000000x256_S256x128_S1000000x128_1_0_0_1_n_n : DotDims S1000000x256 S256x128 S1000000x128 where
  lhsContracting := [1]
  rhsContracting := [0]
  lhsNonContracting := [0]
  rhsNonContracting := [1]
  lhsBatch := []
  rhsBatch := []
  wf := dot_S1000000x256_S256x128_S1000000x128_1_0_0_1_n_n_wf
def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf

class Facts : Prop extends Facts₀ where

variable [Facts]
-- ==== Proof.RowSpec.lean ====
/-
  One edge's output row, on the extended reals.  An edge carries four feature rows of 64 numbers: its own, its
  receiver's, its sender's and its graph's.  The first layer multiplies each by its own 64 × 128 block of the weight
  matrix, adds the four products left to right, adds the bias and clips at zero; the second layer is one 128 × 128
  product plus bias, clipped at zero; the last step subtracts the row's mean, divides by the square root of the row's
  variance plus a small constant, scales and shifts.  Both programs compute this row function; they differ in how the
  first layer's 256-term sum is grouped, which on the extended reals is only associativity of addition.
-/
import Idealize.ShloMosaic.PureOps.Ideal.Laws
import Idealize.ShloMosaic.Lib.ValueIdx

noncomputable section

open scoped BigOperators

namespace Cert.EdgeRow

open Idealize.ShloMosaic Idealize.ShloMosaic.ValueIdx

/-- The three float words the row function uses: zero, 128 (the row length) and the variance's small constant. -/
abbrev zeroW : EReal := Ideal.ofBits .f32 0x00000000#32
abbrev lenW : EReal := Ideal.ofBits .f32 0x43000000#32
abbrev epsW : EReal := Ideal.ofBits .f32 0x3727C5AC#32

/-- First layer at output `j`: the four 64-term products added left to right, the bias, clipped at zero. -/
def layer1 (e rc sd gl : Fin 64 → EReal) (We Wr Ws Wg : Fin 64 → Fin 128 → EReal) (b1 : Fin 128 → EReal)
    (j : Fin 128) : EReal :=
  max (((((∑ q : Fin 64, e q * We q j) + ∑ q : Fin 64, rc q * Wr q j) + ∑ q : Fin 64, sd q * Ws q j)
    + ∑ q : Fin 64, gl q * Wg q j) + b1 j) zeroW

/-- Second layer at output `o`: one 128-term product, the bias, clipped at zero. -/
def layer2 (h : Fin 128 → EReal) (W2 : Fin 128 → Fin 128 → EReal) (b2 : Fin 128 → EReal) (o : Fin 128) : EReal :=
  max ((∑ j : Fin 128, h j * W2 j o) + b2 o) zeroW

/-- The mean of a row of 128 numbers. -/
def mean (h : Fin 128 → EReal) : EReal := Ideal.div (∑ o : Fin 128, h o) lenW

/-- The row centred, divided by the root of its variance plus the small constant, scaled by `g`, shifted by `b`. -/
def rowNorm (h g b : Fin 128 → EReal) (o : Fin 128) : EReal :=
  ((h o - mean h) * Ideal.rsqrt (mean (fun u => (h u - mean h) * (h u - mean h)) + epsW)) * g o + b o

/-- An edge's whole output row from its four feature rows and the weights. -/
def rowOut (e rc sd gl : Fin 64 → EReal) (We Wr Ws Wg : Fin 64 → Fin 128 → EReal) (b1 : Fin 128 → EReal)
    (W2 : Fin 128 → Fin 128 → EReal) (b2 g b : Fin 128 → EReal) : Fin 128 → EReal :=
  rowNorm (layer2 (layer1 e rc sd gl We Wr Ws Wg b1) W2 b2) g b

/-- Entry (r, o) of the result: the row function at row r of the four per-edge feature arrays, with the 256 × 128
    weight matrix read as its four 64-row bands. -/
def edgeEntry (e rc sd gl : (⟨2, ![1000000, 64]⟩ : Shape).Idx → EReal) (W1 : (⟨2, ![256, 128]⟩ : Shape).Idx → EReal)
    (b1 : (⟨1, ![128]⟩ : Shape).Idx → EReal) (W2 : (⟨2, ![128, 128]⟩ : Shape).Idx → EReal)
    (b2 g b : (⟨1, ![128]⟩ : Shape).Idx → EReal) (r : Fin 1000000) (o : Fin 128) : EReal :=
  rowOut (fun q => e (ix2 r q)) (fun q => rc (ix2 r q)) (fun q => sd (ix2 r q)) (fun q => gl (ix2 r q))
    (fun q u => W1 (ix2 (⟨q.val, by have := q.isLt; omega⟩ : Fin 256) u))
    (fun q u => W1 (ix2 (⟨64 + q.val, by have := q.isLt; omega⟩ : Fin 256) u))
    (fun q u => W1 (ix2 (⟨128 + q.val, by have := q.isLt; omega⟩ : Fin 256) u))
    (fun q u => W1 (ix2 (⟨192 + q.val, by have := q.isLt; omega⟩ : Fin 256) u))
    (fun u => b1 (ix1 u)) (fun j u => W2 (ix2 j u)) (fun u => b2 (ix1 u)) (fun u => g (ix1 u)) (fun u => b (ix1 u)) o

/-- The whole 1000000 × 128 result as one function of the per-edge feature arrays and the weights. -/
def edgeArray (e rc sd gl : (⟨2, ![1000000, 64]⟩ : Shape).Idx → EReal) (W1 : (⟨2, ![256, 128]⟩ : Shape).Idx → EReal)
    (b1 : (⟨1, ![128]⟩ : Shape).Idx → EReal) (W2 : (⟨2, ![128, 128]⟩ : Shape).Idx → EReal)
    (b2 g b : (⟨1, ![128]⟩ : Shape).Idx → EReal) : (⟨2, ![1000000, 128]⟩ : Shape).Idx → EReal :=
  fun i => edgeEntry e rc sd gl W1 b1 W2 b2 g b (i 0) (i 1)

theorem edgeArray_ix2 (e rc sd gl : (⟨2, ![1000000, 64]⟩ : Shape).Idx → EReal) (W1 : (⟨2, ![256, 128]⟩ : Shape).Idx → EReal)
    (b1 : (⟨1, ![128]⟩ : Shape).Idx → EReal) (W2 : (⟨2, ![128, 128]⟩ : Shape).Idx → EReal)
    (b2 g b : (⟨1, ![128]⟩ : Shape).Idx → EReal) (r : Fin 1000000) (o : Fin 128) :
    edgeArray e rc sd gl W1 b1 W2 b2 g b (ix2 r o) = edgeEntry e rc sd gl W1 b1 W2 b2 g b r o := rfl

end Cert.EdgeRow

end
-- ==== Proof.LibRowsProduct.lean ====
/-
  The product of an a × K array by a K × b array with the one axis of extent K contracted, read at the entry
  (p, u) on the extended reals: the finite sum over k of lhs (p, k) · rhs (k, u).  Two spellings of the same
  sum are read: the product a kernel forms into the zero accumulator, and the host's general dot product, which
  has no accumulator.  The operands may be typed at any float formats (on the extended reals a format is only a
  label).  The dimension record enters through its contracted rank and extent and four facts about where it
  sends an output index and a contraction index; nothing here knows a program.
-/
import Idealize.ShloMosaic.Lib.ValueIdx
import Idealize.ShloMosaic.PureOps.Ideal.Laws

noncomputable section

open scoped BigOperators

namespace Cert.RowsProduct

open Idealize.ShloMosaic Idealize.ShloMosaic.ValueIdx

variable {a K b : ℕ} {φ₁ φ₂ : FTy}

/-- With the left operand's rows following the output's rows, the right operand's columns following the output's
    columns, and the contracted coordinate running along the left operand's columns and the right operand's rows,
    the two operand indices at output entry (p, u) and contraction coordinate k are (p, k) and (k, u). -/
theorem operand_indices (D : DotDims ⟨2, ![a, K]⟩ ⟨2, ![K, b]⟩ ⟨2, ![a, b]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin a) (u : Fin b) (k : Fin K) :
    D.lhsIdx (ix2 p u) ((contrEquiv1 D K hr hs).symm k) = ix2 p k
      ∧ D.rhsIdx (ix2 p u) ((contrEquiv1 D K hr hs).symm k) = ix2 k u := by
  have hk := contrEquiv1_symm_val D K hr hs k
  refine ⟨funext fun ax => Fin.ext ?_, funext fun ax => Fin.ext ?_⟩
  · match ax with
    | ⟨0, _⟩ => exact hl0 _ _
    | ⟨1, _⟩ => exact (hl1 _ _).trans hk
  · match ax with
    | ⟨0, _⟩ => exact (hr0 _ _).trans hk
    | ⟨1, _⟩ => exact hr1 _ _

/-- The product into the zero accumulator, at entry (p, u), is Σ_k lhs (p, k) · rhs (k, u). -/
theorem matmul_zero_rows_apply (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  obtain ⟨el, er⟩ := operand_indices D hr hs hl0 hl1 hr0 hr1 p u k
  rw [el, er]

/-- The host's general dot product, at entry (p, u), is the same sum, whatever its schedule key. -/
theorem dotGeneral_rows_apply (D : DotDims ⟨2, ![a, K]⟩ ⟨2, ![K, b]⟩ ⟨2, ![a, b]⟩) (prec : Option ContractPrecision)
    (sched : HostSchedule)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.dotGeneral D prec sched lhs rhs (ix2 p u) = ∑ k : Fin K, lhs (ix2 p k) * rhs (ix2 k u) := by
  rw [Ideal.dotGeneral_apply, ← Equiv.sum_comp (contrEquiv1 D K hr hs).symm]
  refine Finset.sum_congr rfl fun k _ => ?_
  obtain ⟨el, er⟩ := operand_indices D hr hs hl0 hl1 hr0 hr1 p u k
  rw [el, er]

end Cert.RowsProduct

end
-- ==== Proof.LibVecRead.lean ====
/-
  Vector operations of small literal shapes read at an index built from coordinates: a column made from a
  vector, a column broadcast over the lanes, a rectangular slice with offsets on both axes, a sum along the
  lanes as a finite sum, and the mask "row index equals lane index".  Nothing here knows a program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.VecRead

open Idealize.ShloMosaic Idealize.ShloMosaic.ValueIdx

variable {α : Type}

/-- A vector of length `a` viewed as an `a × 1` column reads, at `(r, 0)`, the vector at `r`. -/
theorem shapeCast_col_apply {a : ℕ} (v : (⟨1, ![a]⟩ : Shape).Idx → α) (h : (⟨1, ![a]⟩ : Shape).ShapeCasts ⟨2, ![a, 1]⟩)
    (r : Fin a) (z : Fin 1) : shapeCast ⟨2, ![a, 1]⟩ v h (ix2 r z) = v (ix1 r) :=
  shapeCast_apply v h _ _ (by
    have hz : z.val = 0 := by omega
    rw [Shape.rowMajor_val_one, Shape.rowMajor_val_two]
    show r.val = r.val * 1 + z.val
    omega)

/-- An `a × 1` column broadcast to `a × b` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A rectangular slice with unit strides reads, at `(r, c)`, the operand at `(o₀ + r, o₁ + c)`. -/
theorem slice2_apply {n0 n1 m0 m1 : ℕ} (o0 o1 : ℕ) (X : (⟨2, ![n0, n1]⟩ : Shape).Idx → α)
    (h : (⟨2, ![n0, n1]⟩ : Shape).Slices ![o0, o1] ⟨2, ![m0, m1]⟩) (r : Fin m0) (c : Fin m1) (r' : Fin n0) (c' : Fin n1)
    (hr : r'.val = o0 + r.val) (hc : c'.val = o1 + c.val) :
    extractStridedSlice ⟨2, ![m0, m1]⟩ ![o0, o1] X h (ix2 r c) = X (ix2 r' c') :=
  extractStridedSlice_apply _ X h _ _ fun ax => match ax with
    | ⟨0, _⟩ => hr
    | ⟨1, _⟩ => hc

/-- At the extended reals a sum along the lanes of an `a × b` array, from the zero word, is at row `r` the finite sum
    of the row's entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec FTy.f32.bits) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src (funext fun d => Fin.ext ?_)
  match d with
  | ⟨0, _⟩ => rfl
  | ⟨1, _⟩ => rfl

/-- The mask "row index = lane index" of an `n × n` tile, `n` below `2^32`. -/
theorem eyeMask_apply {n : ℕ} (hn : n ≤ 4294967296) (h0 : (⟨2, ![n, n]⟩ : Shape).Iotas .tc 32 [0]) (h1 : (⟨2, ![n, n]⟩ : Shape).Iotas .tc 32 [1])
    (r c : Fin n) :
    cmpi .eq (iota .tc ⟨2, ![n, n]⟩ 32 [0] h0) (iota .tc ⟨2, ![n, n]⟩ 32 [1] h1) (ix2 r c) = if r = c then 1#1 else 0#1 := by
  show IntOp.cmpi .eq (iota .tc ⟨2, ![n, n]⟩ 32 [0] h0 (ix2 r c)) (iota .tc ⟨2, ![n, n]⟩ 32 [1] h1 (ix2 r c)) = _
  rw [iota_single_apply, iota_single_apply]
  show BitVec.ofBool (BitVec.ofNat 32 r.val == BitVec.ofNat 32 c.val) = _
  have hr := r.isLt
  have hc := c.isLt
  by_cases e : r = c
  · subst e; simp
  · have : r.val ≠ c.val := fun hv => e (Fin.ext hv)
    have hne : BitVec.ofNat 32 r.val ≠ BitVec.ofNat 32 c.val := by
      intro hv
      have := congrArg BitVec.toNat hv
      simp only [BitVec.toNat_ofNat] at this
      rw [Nat.mod_eq_of_lt (by omega), Nat.mod_eq_of_lt (by omega)] at this
      exact ‹r.val ≠ c.val› this
    rw [if_neg e, beq_eq_false_iff_ne.mpr hne]
    rfl

/-- A select under that mask against the zero word, summed along the lanes, keeps the diagonal entry: every other
    term of the sum is zero. -/
theorem sum_eye_select {n : ℕ} (f : Fin n → EReal) (r : Fin n) :
    (∑ k : Fin n, Scalar.select (if r = k then 1#1 else 0#1) (f k) (0 : EReal)) = f r := by
  have : ∀ k : Fin n, Scalar.select (if r = k then 1#1 else 0#1) (f k) (0 : EReal) = if r = k then f k else 0 := by
    intro k; by_cases e : r = k <;> simp [e, Scalar.select]
  simp only [this, Finset.sum_ite_eq, Finset.mem_univ, if_true]

end Cert.VecRead

end
-- ==== Proof.KernelRow.lean ====
/-
  The kernel's body at one entry of its 5000 × 128 output block.  Entry (p, o) depends on row p of each of the four
  5000 × 64 feature blocks and on the whole weight blocks: it is the row function of RowSpec at those rows.  The
  changes of float format in the body are the identity on the extended reals; each product into a zero accumulator
  is a finite sum over the contracted coordinate; a bias row broadcast down the block reads its one row; a row sum
  kept as a column and broadcast back reads the sum of its own row.
-/
import proofs.«158793_j19078244729180_1_alg».proof.Proof.Gen.KernelIdeal.Skeleton
import proofs.«158793_j19078244729180_1_alg».proof.Proof.RowSpec
import proofs.«158793_j19078244729180_1_alg».proof.Proof.LibRowsProduct
import proofs.«158793_j19078244729180_1_alg».proof.Proof.LibVecRead
import Idealize.ShloMosaic.Lib.ValueLayout

noncomputable section

open scoped BigOperators

namespace Cert.KernelIdeal.Row

open Cert.KernelIdeal Cert.KernelIdeal.Gen Idealize.ShloMosaic Idealize.ShloMosaic.ValueIdx Cert.EdgeRow

/-! ### Where the two contraction records send an output index and a contraction index -/

theorem d64_l0 (j : S5000x128.Idx) (q : dot_S5000x64_S64x128_S5000x128_1_0_0_1_n_n.contr.Idx) :
    (dot_S5000x64_S64x128_S5000x128_1_0_0_1_n_n.lhsIdx j q 0).val = (j 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem d64_l1 (j : S5000x128.Idx) (q : dot_S5000x64_S64x128_S5000x128_1_0_0_1_n_n.contr.Idx) :
    (dot_S5000x64_S64x128_S5000x128_1_0_0_1_n_n.lhsIdx j q 1).val = (q ⟨0, by decide⟩).val :=
  dot_S5000x64_S64x128_S5000x128_1_0_0_1_n_n.lhsIdx_val_of_single rfl j q
theorem d64_r0 (j : S5000x128.Idx) (q : dot_S5000x64_S64x128_S5000x128_1_0_0_1_n_n.contr.Idx) :
    (dot_S5000x64_S64x128_S5000x128_1_0_0_1_n_n.rhsIdx j q 0).val = (q ⟨0, by decide⟩).val :=
  dot_S5000x64_S64x128_S5000x128_1_0_0_1_n_n.rhsIdx_val_of_single rfl j q
theorem d64_r1 (j : S5000x128.Idx) (q : dot_S5000x64_S64x128_S5000x128_1_0_0_1_n_n.contr.Idx) :
    (dot_S5000x64_S64x128_S5000x128_1_0_0_1_n_n.rhsIdx j q 1).val = (j 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

theorem d128_l0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem d128_l1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem d128_r0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem d128_r1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ### The body's operations that are not pointwise, each read at coordinates -/

/-- A 5000 × 64 block times a 64 × 128 block, into zero, at (p, j): the sum over the 64 shared coordinates. -/
theorem prod64 (x : FVec Ideal S5000x64 .bf16) (w : FVec Ideal S64x128 .bf16) (p : Fin 5000) (j : Fin 128) :
    matmul dot_S5000x64_S64x128_S5000x128_1_0_0_1_n_n none x w (constant S5000x128 .f32 0x00000000#32) (ix2 p j)
      = ∑ q : Fin 64, x (ix2 p q) * w (ix2 q j) :=
  Cert.RowsProduct.matmul_zero_rows_apply dot_S5000x64_S64x128_S5000x128_1_0_0_1_n_n none rfl rfl d64_l0 d64_l1 d64_r0 d64_r1 x w p j

/-- A 5000 × 128 block times the 128 × 128 matrix, into zero, at (p, o): the sum over the 128 shared coordinates. -/
theorem prod128 (x : FVec Ideal S5000x128 .bf16) (w : FVec Ideal S128x128 .bf16) (p : Fin 5000) (o : Fin 128) :
    matmul dot_S5000x128_S128x128_S5000x128_1_0_0_1_n_n none x w (constant S5000x128 .f32 0x00000000#32) (ix2 p o)
      = ∑ j : Fin 128, x (ix2 p j) * w (ix2 j o) :=
  Cert.RowsProduct.matmul_zero_rows_apply dot_S5000x128_S128x128_S5000x128_1_0_0_1_n_n none rfl rfl d128_l0 d128_l1 d128_r0 d128_r1 x w p o

/-- A 1 × 128 row broadcast down the block reads, at (p, o), the row at o. -/
theorem rowBcast (v : FVec Ideal S1x128 .f32) (p : Fin 5000) (o : Fin 128) :
    broadcastTo S5000x128 v broadcasts_S1x128_S5000x128 (ix2 p o) = v (ix2 (0 : Fin 1) o) :=
  broadcastTo_1b_ab_apply v broadcasts_S1x128_S5000x128 p o

/-- A 5000 × 1 column broadcast across the lanes reads, at (p, o), the column at p. -/
theorem colBcast (v : FVec Ideal S5000x1 .f32) (p : Fin 5000) (o : Fin 128) :
    broadcastTo S5000x128 v broadcasts_S5000x1_S5000x128 (ix2 p o) = v (ix2 p (0 : Fin 1)) :=
  Cert.VecRead.broadcastTo_col_apply v broadcasts_S5000x1_S5000x128 p o

/-- A length-5000 vector kept as a column reads, at (p, 0), the vector at p. -/
theorem colCast (v : FVec Ideal S5000 .f32) (p : Fin 5000) (z : Fin 1) :
    shapeCast S5000x1 v shapeCasts_S5000_S5000x1 (ix2 p z) = v (ix1 p) :=
  Cert.VecRead.shapeCast_col_apply v shapeCasts_S5000_S5000x1 p z

/-- The sum along the lanes from the zero word is, at row p, the sum of the row's 128 entries. -/
theorem rowSum (v : FVec Ideal S5000x128 .f32) (hφ : FKind.Formats .f32)
    (hacc : (0x00000000#32 : BitVec FTy.f32.bits) = FKind.add.neutral .f32 hφ) (p : Fin 5000) :
    multiReduction .add [1] S5000 v 0x00000000#32 reduces_S5000x128_S5000 hφ hacc (ix1 p)
      = ∑ k : Fin 128, v (ix2 p k) :=
  Cert.VecRead.laneSum_apply v reduces_S5000x128_S5000 hφ hacc p

/-- The reciprocal square root acts entry by entry. -/
theorem rsqrt_at {s : Shape} {φ : FTy} (a : FVec Ideal s φ) (i : s.Idx) : rsqrt a i = Ideal.rsqrt (a i) := rfl

/-! ### The two halves of the body, and the body -/

/-- The first layer's block at (p, j) is the first layer of row p. -/
theorem pay2_apply (x0 x1 x2 x3 : Vec Ideal S5000x64 .f32) (x4 x5 x6 x7 : Vec Ideal S64x128 .f32)
    (x8 : Vec Ideal S1x128 .f32) (p : Fin 5000) (j : Fin 128) :
    k0_pay2 x0 x1 x2 x3 x4 x5 x6 x7 x8 (ix2 p j)
      = layer1 (fun q => x0 (ix2 p q)) (fun q => x1 (ix2 p q)) (fun q => x2 (ix2 p q)) (fun q => x3 (ix2 p q))
          (fun q u => x4 (ix2 q u)) (fun q u => x5 (ix2 q u)) (fun q u => x6 (ix2 q u)) (fun q u => x7 (ix2 q u))
          (fun u => x8 (ix2 (0 : Fin 1) u)) j := by
  unfold k0_pay2
  simp only [shapeCast_self, maximumf_apply, addf_apply, prod64, rowBcast, truncf_apply, broadcast_apply]
  rfl

/-! The second half of the body, cut into the pieces its mathematics has: the second layer's block, a row mean kept as a
    column, and the normalisation built from two such means. -/

/-- The second layer's block from the first layer's block `h1`. -/
def layer2Blk (h1 : FVec Ideal S5000x128 .f32) (x9 : Vec Ideal S128x128 .f32) (x10 : Vec Ideal S1x128 .f32) :
    FVec Ideal S5000x128 .f32 :=
  maximumf (addf (matmul dot_S5000x128_S128x128_S5000x128_1_0_0_1_n_n none (truncf .bf16 h1 bitsLt_bf16_f32) (truncf .bf16 x9 bitsLt_bf16_f32)
      (constant S5000x128 .f32 0x00000000#32))
    (broadcastTo S5000x128 (shapeCast S1x128 x10 shapeCasts_S1x128_S1x128) broadcasts_S1x128_S5000x128))
    (broadcast S5000x128 (Scalar.ofBits (F := Ideal) .f32 0x00000000#32))

/-- Each row's sum divided by 128, kept as a column. -/
def meanCol (v : FVec Ideal S5000x128 .f32) : FVec Ideal S5000x1 .f32 :=
  divf (shapeCast S5000x1 (multiReduction .add [1] S5000 v 0x00000000#32 reduces_S5000x128_S5000 (.inl rfl) rfl)
      shapeCasts_S5000_S5000x1)
    (broadcast S5000x1 (Scalar.ofBits (F := Ideal) .f32 0x43000000#32))

/-- A block with each row's mean subtracted. -/
def centred (v : FVec Ideal S5000x128 .f32) : FVec Ideal S5000x128 .f32 :=
  subf v (broadcastTo S5000x128 (meanCol v) broadcasts_S5000x1_S5000x128)

/-- The centred block times the reciprocal root of (row variance + small constant), scaled by row `x11`, shifted by `x12`. -/
def normBlk (v : FVec Ideal S5000x128 .f32) (x11 x12 : Vec Ideal S1x128 .f32) : FVec Ideal S5000x128 .f32 :=
  addf (mulf (mulf (centred v)
        (broadcastTo S5000x128 (rsqrt (addf (meanCol (mulf (centred v) (centred v)))
          (broadcast S5000x1 (Scalar.ofBits (F := Ideal) .f32 0x3727C5AC#32)))) broadcasts_S5000x1_S5000x128))
      (broadcastTo S5000x128 (shapeCast S1x128 x11 shapeCasts_S1x128_S1x128) broadcasts_S1x128_S5000x128))
    (broadcastTo S5000x128 (shapeCast S1x128 x12 shapeCasts_S1x128_S1x128) broadcasts_S1x128_S5000x128)

/-- The body's second half is these pieces composed. -/
theorem pay1_eq (h1 : FVec Ideal S5000x128 .f32) (x9 : Vec Ideal S128x128 .f32) (x10 x11 x12 : Vec Ideal S1x128 .f32) :
    k0_pay1 h1 x9 x10 x11 x12 = normBlk (layer2Blk h1 x9 x10) x11 x12 := rfl

/-- The second layer's block at (p, k) is the second layer of row p of `h1`. -/
theorem layer2Blk_apply (h1 : FVec Ideal S5000x128 .f32) (x9 : Vec Ideal S128x128 .f32) (x10 : Vec Ideal S1x128 .f32)
    (p : Fin 5000) (k : Fin 128) :
    layer2Blk h1 x9 x10 (ix2 p k)
      = layer2 (fun j => h1 (ix2 p j)) (fun j u => x9 (ix2 j u)) (fun u => x10 (ix2 (0 : Fin 1) u)) k := by
  unfold layer2Blk
  simp only [shapeCast_self, maximumf_apply, addf_apply, prod128, rowBcast, truncf_apply, broadcast_apply]
  rfl

/-- The mean column at (p, ·) is the mean of row p. -/
theorem meanCol_apply (v : FVec Ideal S5000x128 .f32) (p : Fin 5000) (z : Fin 1) :
    meanCol v (ix2 p z) = mean (fun k => v (ix2 p k)) := by
  unfold meanCol mean
  exact congrArg₂ Ideal.div ((colCast _ p z).trans (rowSum v _ _ p)) rfl

/-- The centred block at (p, k) is the entry less its row's mean. -/
theorem centred_apply (v : FVec Ideal S5000x128 .f32) (p : Fin 5000) (k : Fin 128) :
    centred v (ix2 p k) = v (ix2 p k) - mean (fun u => v (ix2 p u)) := by
  unfold centred
  exact congrArg (v (ix2 p k) - ·) ((colBcast _ p k).trans (meanCol_apply v p 0))

/-- A 1 × 128 row, viewed as itself and broadcast down the block, reads its one row. -/
theorem rowBcastSelf (x : Vec Ideal S1x128 .f32) (p : Fin 5000) (o : Fin 128) :
    broadcastTo S5000x128 (shapeCast S1x128 x shapeCasts_S1x128_S1x128) broadcasts_S1x128_S5000x128 (ix2 p o)
      = x (ix2 (0 : Fin 1) o) :=
  (rowBcast _ p o).trans (congrFun (shapeCast_self x shapeCasts_S1x128_S1x128) _)

/-- The normalised block at (p, o) is the normalisation of row p. -/
theorem normBlk_apply (v : FVec Ideal S5000x128 .f32) (x11 x12 : Vec Ideal S1x128 .f32) (p : Fin 5000) (o : Fin 128) :
    normBlk v x11 x12 (ix2 p o)
      = rowNorm (fun u => v (ix2 p u)) (fun u => x11 (ix2 (0 : Fin 1) u)) (fun u => x12 (ix2 (0 : Fin 1) u)) o := by
  have hsq : (fun u : Fin 128 => mulf (centred v) (centred v) (ix2 p u))
      = fun u => (v (ix2 p u) - mean (fun w => v (ix2 p w))) * (v (ix2 p u) - mean (fun w => v (ix2 p w))) :=
    funext fun u => congrArg₂ (· * ·) (centred_apply v p u) (centred_apply v p u)
  have hvar : meanCol (mulf (centred v) (centred v)) (ix2 p (0 : Fin 1))
      = mean (fun u => (v (ix2 p u) - mean (fun w => v (ix2 p w))) * (v (ix2 p u) - mean (fun w => v (ix2 p w)))) :=
    (meanCol_apply _ p 0).trans (congrArg mean hsq)
  have hrs : broadcastTo S5000x128 (rsqrt (addf (meanCol (mulf (centred v) (centred v)))
        (broadcast S5000x1 (Scalar.ofBits (F := Ideal) .f32 0x3727C5AC#32)))) broadcasts_S5000x1_S5000x128 (ix2 p o)
      = Ideal.rsqrt (mean (fun u => (v (ix2 p u) - mean (fun w => v (ix2 p w))) * (v (ix2 p u) - mean (fun w => v (ix2 p w))))
          + epsW) :=
    (colBcast _ p o).trans (congrArg (fun s => Ideal.rsqrt (s + epsW)) hvar)
  unfold normBlk rowNorm
  exact congrArg₂ (· + ·) (congrArg₂ (· * ·) (congrArg₂ (· * ·) (centred_apply v p o) hrs) (rowBcastSelf x11 p o))
    (rowBcastSelf x12 p o)

/-- The rest of the body at (p, o), from the first layer's block `h1`: the second layer of row p of `h1`, normalised. -/
theorem pay1_apply (h1 : FVec Ideal S5000x128 .f32) (x9 : Vec Ideal S128x128 .f32) (x10 x11 x12 : Vec Ideal S1x128 .f32)
    (p : Fin 5000) (o : Fin 128) :
    k0_pay1 h1 x9 x10 x11 x12 (ix2 p o)
      = rowNorm (layer2 (fun j => h1 (ix2 p j)) (fun j u => x9 (ix2 j u)) (fun u => x10 (ix2 (0 : Fin 1) u)))
          (fun u => x11 (ix2 (0 : Fin 1) u)) (fun u => x12 (ix2 (0 : Fin 1) u)) o := by
  rw [pay1_eq]
  refine (normBlk_apply _ x11 x12 p o).trans ?_
  have h : (fun u => layer2Blk h1 x9 x10 (ix2 p u))
      = layer2 (fun j => h1 (ix2 p j)) (fun j u => x9 (ix2 j u)) (fun u => x10 (ix2 (0 : Fin 1) u)) :=
    funext fun u => layer2Blk_apply h1 x9 x10 p u
  rw [h]

/-- The whole body at (p, o) is the row function at row p of the four feature blocks. -/
theorem payload_row (x0 x1 x2 x3 : Vec Ideal S5000x64 .f32) (x4 x5 x6 x7 : Vec Ideal S64x128 .f32)
    (x8 : Vec Ideal S1x128 .f32) (x9 : Vec Ideal S128x128 .f32) (x10 x11 x12 : Vec Ideal S1x128 .f32)
    (p : Fin 5000) (o : Fin 128) :
    k0_pay1 (k0_pay2 x0 x1 x2 x3 x4 x5 x6 x7 x8) x9 x10 x11 x12 (ix2 p o)
      = rowOut (fun q => x0 (ix2 p q)) (fun q => x1 (ix2 p q)) (fun q => x2 (ix2 p q)) (fun q => x3 (ix2 p q))
          (fun q u => x4 (ix2 q u)) (fun q u => x5 (ix2 q u)) (fun q u => x6 (ix2 q u)) (fun q u => x7 (ix2 q u))
          (fun u => x8 (ix2 (0 : Fin 1) u)) (fun j u => x9 (ix2 j u)) (fun u => x10 (ix2 (0 : Fin 1) u))
          (fun u => x11 (ix2 (0 : Fin 1) u)) (fun u => x12 (ix2 (0 : Fin 1) u)) o := by
  refine (pay1_apply _ x9 x10 x11 x12 p o).trans ?_
  have h : (fun j => k0_pay2 x0 x1 x2 x3 x4 x5 x6 x7 x8 (ix2 p j))
      = layer1 (fun q => x0 (ix2 p q)) (fun q => x1 (ix2 p q)) (fun q => x2 (ix2 p q)) (fun q => x3 (ix2 p q))
          (fun q u => x4 (ix2 q u)) (fun q u => x5 (ix2 q u)) (fun q u => x6 (ix2 q u)) (fun q u => x7 (ix2 q u))
          (fun u => x8 (ix2 (0 : Fin 1) u)) :=
    funext fun j => pay2_apply x0 x1 x2 x3 x4 x5 x6 x7 x8 p j
  rw [h]
  rfl

end Cert.KernelIdeal.Row

end
-- ==== Proof.KernelArray.lean ====
/-
  From the kernel's blocks to its whole result array.  The grid has 200 points; point t reads rows 5000·t … 5000·t + 4999
  of the four per-edge feature arrays, the whole of each weight array, and writes rows 5000·t … 5000·t + 4999 of the
  result.  Since entry (p, o) of the block written at t is the row function of row 5000·t + p, every point writes the
  restriction of ONE whole-array function to its block; the 200 blocks cover the array, so the array ends holding that
  function.  The weight arrays the region finds are pieces the host cut from the arguments before the call: four bands
  of 64 rows of the 256 × 128 matrix, and the four vectors of length 128 viewed as single rows.
-/
import proofs.«158793_j19078244729180_1_alg».proof.Proof.Gen.KernelIdeal.Value
import proofs.«158793_j19078244729180_1_alg».proof.Proof.KernelRow
import Idealize.ShloMosaic.Lib.StableHlo.Run

noncomputable section

namespace Cert.KernelIdeal.Arr

open Cert.KernelIdeal Cert.KernelIdeal.Gen Idealize.ShloMosaic Idealize.ShloMosaic.TcCoe Idealize.SL.Sem
open Idealize.ShloMosaic.ValueIdx Cert.EdgeRow
open Idealize.ShloMosaic.Pipeline (Dat)

variable (m : (ℓ : Loc nD τ sig) → Buf (Elt Ideal) ℓ) (ρ : Dev nD → PrngReg)

/-! ### The index maps over the 200 grid points -/

/-- The four feature windows move with the result window along the rows and sit at column block 0; the result window
    sits at column block 0 and at row block t. -/
theorem idx_stream : ∀ t : Fin cfg0.N,
    win0_0.index t (0 : Fin 2) = win0_13.index t (0 : Fin 2) ∧ win0_0.index t (1 : Fin 2) = 0
    ∧ win0_1.index t (0 : Fin 2) = win0_13.index t (0 : Fin 2) ∧ win0_1.index t (1 : Fin 2) = 0
    ∧ win0_2.index t (0 : Fin 2) = win0_13.index t (0 : Fin 2) ∧ win0_2.index t (1 : Fin 2) = 0
    ∧ win0_3.index t (0 : Fin 2) = win0_13.index t (0 : Fin 2) ∧ win0_3.index t (1 : Fin 2) = 0
    ∧ win0_13.index t (1 : Fin 2) = 0 ∧ win0_13.index t (0 : Fin 2) = t.val :=
  (by decide +kernel : ∀ t : Fin grid0.N,
    win0_0.index t (0 : Fin 2) = win0_13.index t (0 : Fin 2) ∧ win0_0.index t (1 : Fin 2) = 0
    ∧ win0_1.index t (0 : Fin 2) = win0_13.index t (0 : Fin 2) ∧ win0_1.index t (1 : Fin 2) = 0
    ∧ win0_2.index t (0 : Fin 2) = win0_13.index t (0 : Fin 2) ∧ win0_2.index t (1 : Fin 2) = 0
    ∧ win0_3.index t (0 : Fin 2) = win0_13.index t (0 : Fin 2) ∧ win0_3.index t (1 : Fin 2) = 0
    ∧ win0_13.index t (1 : Fin 2) = 0 ∧ win0_13.index t (0 : Fin 2) = t.val)

/-- The nine weight windows stay at block (0, 0). -/
theorem idx_c4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_c5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_c6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_c7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_c8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx_c9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx_c10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx_c11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx_c12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)

/-! ### A window's block read at coordinates -/

theorem read_w0 (c : Dev nD) (t : Fin cfg0.N) (p : Fin 5000) (q : Fin 64) (r : Fin 1000000)
    (hr : r.val = win0_13.index t (0 : Fin 2) * 5000 + p.val) :
    iblk m c 0 t (ix2 p q) = V m c main_arg1 (ix2 r q) := by
  obtain ⟨f0, f1, f2, f3, f4, f5, f6, f7, -⟩ := idx_stream t
  show V m c main_arg1 (((cfg0.win 0).blk t).view.emb (ix2 p q)) = V m c main_arg1 (ix2 r q)
  refine congrArg _ (funext fun a => Fin.ext ?_)
  match a with
  | ⟨0, _⟩ => show win0_0.index t (0 : Fin 2) * 5000 + 1 * p.val = r.val; omega
  | ⟨1, _⟩ => show win0_0.index t (1 : Fin 2) * 64 + 1 * q.val = q.val; omega

theorem read_w1 (c : Dev nD) (t : Fin cfg0.N) (p : Fin 5000) (q : Fin 64) (r : Fin 1000000)
    (hr : r.val = win0_13.index t (0 : Fin 2) * 5000 + p.val) :
    iblk m c 1 t (ix2 p q) = V m c main_v17 (ix2 r q) := by
  obtain ⟨f0, f1, f2, f3, f4, f5, f6, f7, -⟩ := idx_stream t
  show V m c main_v17 (((cfg0.win 1).blk t).view.emb (ix2 p q)) = V m c main_v17 (ix2 r q)
  refine congrArg _ (funext fun a => Fin.ext ?_)
  match a with
  | ⟨0, _⟩ => show win0_1.index t (0 : Fin 2) * 5000 + 1 * p.val = r.val; omega
  | ⟨1, _⟩ => show win0_1.index t (1 : Fin 2) * 64 + 1 * q.val = q.val; omega

theorem read_w2 (c : Dev nD) (t : Fin cfg0.N) (p : Fin 5000) (q : Fin 64) (r : Fin 1000000)
    (hr : r.val = win0_13.index t (0 : Fin 2) * 5000 + p.val) :
    iblk m c 2 t (ix2 p q) = V m c main_v10 (ix2 r q) := by
  obtain ⟨f0, f1, f2, f3, f4, f5, f6, f7, -⟩ := idx_stream t
  show V m c main_v10 (((cfg0.win 2).blk t).view.emb (ix2 p q)) = V m c main_v10 (ix2 r q)
  refine congrArg _ (funext fun a => Fin.ext ?_)
  match a with
  | ⟨0, _⟩ => show win0_2.index t (0 : Fin 2) * 5000 + 1 * p.val = r.val; omega
  | ⟨1, _⟩ => show win0_2.index t (1 : Fin 2) * 64 + 1 * q.val = q.val; omega

theorem read_w3 (c : Dev nD) (t : Fin cfg0.N) (p : Fin 5000) (q : Fin 64) (r : Fin 1000000)
    (hr : r.val = win0_13.index t (0 : Fin 2) * 5000 + p.val) :
    iblk m c 3 t (ix2 p q) = V m c main_v31 (ix2 r q) := by
  obtain ⟨f0, f1, f2, f3, f4, f5, f6, f7, -⟩ := idx_stream t
  show V m c main_v31 (((cfg0.win 3).blk t).view.emb (ix2 p q)) = V m c main_v31 (ix2 r q)
  refine congrArg _ (funext fun a => Fin.ext ?_)
  match a with
  | ⟨0, _⟩ => show win0_3.index t (0 : Fin 2) * 5000 + 1 * p.val = r.val; omega
  | ⟨1, _⟩ => show win0_3.index t (1 : Fin 2) * 64 + 1 * q.val = q.val; omega

theorem read_w4 (c : Dev nD) (t : Fin cfg0.N) (a : Fin 64) (b : Fin 128) :
    iblk m c 4 t (ix2 a b) = V m c main_v32 (ix2 a b) := by
  obtain ⟨f0, f1⟩ := idx_c4 t
  show V m c main_v32 (((cfg0.win 4).blk t).view.emb (ix2 a b)) = V m c main_v32 (ix2 a b)
  refine congrArg _ (funext fun ax => Fin.ext ?_)
  match ax with
  | ⟨0, _⟩ => show win0_4.index t (0 : Fin 2) * 64 + 1 * a.val = a.val; omega
  | ⟨1, _⟩ => show win0_4.index t (1 : Fin 2) * 128 + 1 * b.val = b.val; omega

theorem read_w5 (c : Dev nD) (t : Fin cfg0.N) (a : Fin 64) (b : Fin 128) :
    iblk m c 5 t (ix2 a b) = V m c main_v33 (ix2 a b) := by
  obtain ⟨f0, f1⟩ := idx_c5 t
  show V m c main_v33 (((cfg0.win 5).blk t).view.emb (ix2 a b)) = V m c main_v33 (ix2 a b)
  refine congrArg _ (funext fun ax => Fin.ext ?_)
  match ax with
  | ⟨0, _⟩ => show win0_5.index t (0 : Fin 2) * 64 + 1 * a.val = a.val; omega
  | ⟨1, _⟩ => show win0_5.index t (1 : Fin 2) * 128 + 1 * b.val = b.val; omega

theorem read_w6 (c : Dev nD) (t : Fin cfg0.N) (a : Fin 64) (b : Fin 128) :
    iblk m c 6 t (ix2 a b) = V m c main_v34 (ix2 a b) := by
  obtain ⟨f0, f1⟩ := idx_c6 t
  show V m c main_v34 (((cfg0.win 6).blk t).view.emb (ix2 a b)) = V m c main_v34 (ix2 a b)
  refine congrArg _ (funext fun ax => Fin.ext ?_)
  match ax with
  | ⟨0, _⟩ => show win0_6.index t (0 : Fin 2) * 64 + 1 * a.val = a.val; omega
  | ⟨1, _⟩ => show win0_6.index t (1 : Fin 2) * 128 + 1 * b.val = b.val; omega

theorem read_w7 (c : Dev nD) (t : Fin cfg0.N) (a : Fin 64) (b : Fin 128) :
    iblk m c 7 t (ix2 a b) = V m c main_v35 (ix2 a b) := by
  obtain ⟨f0, f1⟩ := idx_c7 t
  show V m c main_v35 (((cfg0.win 7).blk t).view.emb (ix2 a b)) = V m c main_v35 (ix2 a b)
  refine congrArg _ (funext fun ax => Fin.ext ?_)
  match ax with
  | ⟨0, _⟩ => show win0_7.index t (0 : Fin 2) * 64 + 1 * a.val = a.val; omega
  | ⟨1, _⟩ => show win0_7.index t (1 : Fin 2) * 128 + 1 * b.val = b.val; omega

theorem read_w8 (c : Dev nD) (t : Fin cfg0.N) (a : Fin 1) (b : Fin 128) :
    iblk m c 8 t (ix2 a b) = V m c main_v36 (ix2 a b) := by
  obtain ⟨f0, f1⟩ := idx_c8 t
  show V m c main_v36 (((cfg0.win 8).blk t).view.emb (ix2 a b)) = V m c main_v36 (ix2 a b)
  refine congrArg _ (funext fun ax => Fin.ext ?_)
  match ax with
  | ⟨0, _⟩ => show win0_8.index t (0 : Fin 2) * 1 + 1 * a.val = a.val; omega
  | ⟨1, _⟩ => show win0_8.index t (1 : Fin 2) * 128 + 1 * b.val = b.val; omega

theorem read_w9 (c : Dev nD) (t : Fin cfg0.N) (a : Fin 128) (b : Fin 128) :
    iblk m c 9 t (ix2 a b) = V m c main_arg5 (ix2 a b) := by
  obtain ⟨f0, f1⟩ := idx_c9 t
  show V m c main_arg5 (((cfg0.win 9).blk t).view.emb (ix2 a b)) = V m c main_arg5 (ix2 a b)
  refine congrArg _ (funext fun ax => Fin.ext ?_)
  match ax with
  | ⟨0, _⟩ => show win0_9.index t (0 : Fin 2) * 128 + 1 * a.val = a.val; omega
  | ⟨1, _⟩ => show win0_9.index t (1 : Fin 2) * 128 + 1 * b.val = b.val; omega

theorem read_w10 (c : Dev nD) (t : Fin cfg0.N) (a : Fin 1) (b : Fin 128) :
    iblk m c 10 t (ix2 a b) = V m c main_v37 (ix2 a b) := by
  obtain ⟨f0, f1⟩ := idx_c10 t
  show V m c main_v37 (((cfg0.win 10).blk t).view.emb (ix2 a b)) = V m c main_v37 (ix2 a b)
  refine congrArg _ (funext fun ax => Fin.ext ?_)
  match ax with
  | ⟨0, _⟩ => show win0_10.index t (0 : Fin 2) * 1 + 1 * a.val = a.val; omega
  | ⟨1, _⟩ => show win0_10.index t (1 : Fin 2) * 128 + 1 * b.val = b.val; omega

theorem read_w11 (c : Dev nD) (t : Fin cfg0.N) (a : Fin 1) (b : Fin 128) :
    iblk m c 11 t (ix2 a b) = V m c main_v38 (ix2 a b) := by
  obtain ⟨f0, f1⟩ := idx_c11 t
  show V m c main_v38 (((cfg0.win 11).blk t).view.emb (ix2 a b)) = V m c main_v38 (ix2 a b)
  refine congrArg _ (funext fun ax => Fin.ext ?_)
  match ax with
  | ⟨0, _⟩ => show win0_11.index t (0 : Fin 2) * 1 + 1 * a.val = a.val; omega
  | ⟨1, _⟩ => show win0_11.index t (1 : Fin 2) * 128 + 1 * b.val = b.val; omega

theorem read_w12 (c : Dev nD) (t : Fin cfg0.N) (a : Fin 1) (b : Fin 128) :
    iblk m c 12 t (ix2 a b) = V m c main_v39 (ix2 a b) := by
  obtain ⟨f0, f1⟩ := idx_c12 t
  show V m c main_v39 (((cfg0.win 12).blk t).view.emb (ix2 a b)) = V m c main_v39 (ix2 a b)
  refine congrArg _ (funext fun ax => Fin.ext ?_)
  match ax with
  | ⟨0, _⟩ => show win0_12.index t (0 : Fin 2) * 1 + 1 * a.val = a.val; omega
  | ⟨1, _⟩ => show win0_12.index t (1 : Fin 2) * 128 + 1 * b.val = b.val; omega

/-! ### The arrays the host cut from the arguments before the call, read at coordinates -/

theorem V_band0 (c : Dev nD) (q : Fin 64) (u : Fin 128) (hq : q.val < 256) :
    V m c main_v32 (ix2 q u) = m ((c : Thread nD τ).loc main_arg3) (ix2 (⟨q.val, hq⟩ : Fin 256) u) := by
  have e : (V m c main_v32 : S64x128.Idx → EReal)
      = extractStridedSlice S64x128 ![0, 0] (m ((c : Thread nD τ).loc main_arg3)) slices_S256x128_S64x128_0_0 := by
    dsimp only [V, hostOps0]
    after_results <;> rfl
  exact (congrFun e _).trans (Cert.VecRead.slice2_apply 0 0 _ slices_S256x128_S64x128_0_0 q u ⟨_, hq⟩ u
    (Nat.zero_add _).symm (Nat.zero_add _).symm)

theorem V_band1 (c : Dev nD) (q : Fin 64) (u : Fin 128) (hq : 64 + q.val < 256) :
    V m c main_v33 (ix2 q u) = m ((c : Thread nD τ).loc main_arg3) (ix2 (⟨64 + q.val, hq⟩ : Fin 256) u) := by
  have e : (V m c main_v33 : S64x128.Idx → EReal)
      = extractStridedSlice S64x128 ![64, 0] (m ((c : Thread nD τ).loc main_arg3)) slices_S256x128_S64x128_64_0 := by
    dsimp only [V, hostOps0]
    after_results <;> rfl
  exact (congrFun e _).trans (Cert.VecRead.slice2_apply 64 0 _ slices_S256x128_S64x128_64_0 q u ⟨_, hq⟩ u
    rfl (Nat.zero_add _).symm)

theorem V_band2 (c : Dev nD) (q : Fin 64) (u : Fin 128) (hq : 128 + q.val < 256) :
    V m c main_v34 (ix2 q u) = m ((c : Thread nD τ).loc main_arg3) (ix2 (⟨128 + q.val, hq⟩ : Fin 256) u) := by
  have e : (V m c main_v34 : S64x128.Idx → EReal)
      = extractStridedSlice S64x128 ![128, 0] (m ((c : Thread nD τ).loc main_arg3)) slices_S256x128_S64x128_128_0 := by
    dsimp only [V, hostOps0]
    after_results <;> rfl
  exact (congrFun e _).trans (Cert.VecRead.slice2_apply 128 0 _ slices_S256x128_S64x128_128_0 q u ⟨_, hq⟩ u
    rfl (Nat.zero_add _).symm)

theorem V_band3 (c : Dev nD) (q : Fin 64) (u : Fin 128) (hq : 192 + q.val < 256) :
    V m c main_v35 (ix2 q u) = m ((c : Thread nD τ).loc main_arg3) (ix2 (⟨192 + q.val, hq⟩ : Fin 256) u) := by
  have e : (V m c main_v35 : S64x128.Idx → EReal)
      = extractStridedSlice S64x128 ![192, 0] (m ((c : Thread nD τ).loc main_arg3)) slices_S256x128_S64x128_192_0 := by
    dsimp only [V, hostOps0]
    after_results <;> rfl
  exact (congrFun e _).trans (Cert.VecRead.slice2_apply 192 0 _ slices_S256x128_S64x128_192_0 q u ⟨_, hq⟩ u
    rfl (Nat.zero_add _).symm)

theorem V_row36 (c : Dev nD) (u : Fin 128) :
    V m c main_v36 (ix2 (0 : Fin 1) u) = m ((c : Thread nD τ).loc main_arg4) (ix1 u) := by
  have e : (V m c main_v36 : S1x128.Idx → EReal) = shapeCast S1x128 (m ((c : Thread nD τ).loc main_arg4)) shapeCasts_S128_S1x128 := by
    dsimp only [V, hostOps0]
    after_results <;> rfl
  exact (congrFun e _).trans (shapeCast_a_1a_apply _ shapeCasts_S128_S1x128 0 u)

theorem V_row37 (c : Dev nD) (u : Fin 128) :
    V m c main_v37 (ix2 (0 : Fin 1) u) = m ((c : Thread nD τ).loc main_arg6) (ix1 u) := by
  have e : (V m c main_v37 : S1x128.Idx → EReal) = shapeCast S1x128 (m ((c : Thread nD τ).loc main_arg6)) shapeCasts_S128_S1x128 := by
    dsimp only [V, hostOps0]
    after_results <;> rfl
  exact (congrFun e _).trans (shapeCast_a_1a_apply _ shapeCasts_S128_S1x128 0 u)

theorem V_row38 (c : Dev nD) (u : Fin 128) :
    V m c main_v38 (ix2 (0 : Fin 1) u) = m ((c : Thread nD τ).loc main_arg7) (ix1 u) := by
  have e : (V m c main_v38 : S1x128.Idx → EReal) = shapeCast S1x128 (m ((c : Thread nD τ).loc main_arg7)) shapeCasts_S128_S1x128 := by
    dsimp only [V, hostOps0]
    after_results <;> rfl
  exact (congrFun e _).trans (shapeCast_a_1a_apply _ shapeCasts_S128_S1x128 0 u)

theorem V_row39 (c : Dev nD) (u : Fin 128) :
    V m c main_v39 (ix2 (0 : Fin 1) u) = m ((c : Thread nD τ).loc main_arg8) (ix1 u) := by
  have e : (V m c main_v39 : S1x128.Idx → EReal) = shapeCast S1x128 (m ((c : Thread nD τ).loc main_arg8)) shapeCasts_S128_S1x128 := by
    dsimp only [V, hostOps0]
    after_results <;> rfl
  exact (congrFun e _).trans (shapeCast_a_1a_apply _ shapeCasts_S128_S1x128 0 u)

/-! ### The whole-array function, and what each point writes -/

/-- The result array as one function of the arrays the region finds. -/
def G (c : Dev nD) : S1000000x128.Idx → EReal :=
  edgeArray (V m c main_arg1) (V m c main_v17) (V m c main_v10) (V m c main_v31) (m ((c : Thread nD τ).loc main_arg3))
    (m ((c : Thread nD τ).loc main_arg4)) (V m c main_arg5) (m ((c : Thread nD τ).loc main_arg6)) (m ((c : Thread nD τ).loc main_arg7)) (m ((c : Thread nD τ).loc main_arg8))

/-- Entry (p, o) of the block the body computes at point t is entry (5000·t + p, o) of `G`. -/
theorem block_entry (c : Dev nD) (t : Fin cfg0.N) (p : Fin 5000) (o : Fin 128) (r : Fin 1000000)
    (hr : r.val = win0_13.index t (0 : Fin 2) * 5000 + p.val) :
    k0_pay1 (k0_pay2 (iblk m c 0 t) (iblk m c 1 t) (iblk m c 2 t) (iblk m c 3 t) (iblk m c 4 t) (iblk m c 5 t) (iblk m c 6 t) (iblk m c 7 t) (iblk m c 8 t)) (iblk m c 9 t) (iblk m c 10 t) (iblk m c 11 t) (iblk m c 12 t) (ix2 p o)
      = G m c (ix2 r o) := by
  refine (Row.payload_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p o).trans ?_
  have e0 : (fun q : Fin 64 => iblk m c 0 t (ix2 p q)) = fun q => V m c main_arg1 (ix2 r q) :=
    funext fun q => read_w0 m c t p q r hr
  have e1 : (fun q : Fin 64 => iblk m c 1 t (ix2 p q)) = fun q => V m c main_v17 (ix2 r q) :=
    funext fun q => read_w1 m c t p q r hr
  have e2 : (fun q : Fin 64 => iblk m c 2 t (ix2 p q)) = fun q => V m c main_v10 (ix2 r q) :=
    funext fun q => read_w2 m c t p q r hr
  have e3 : (fun q : Fin 64 => iblk m c 3 t (ix2 p q)) = fun q => V m c main_v31 (ix2 r q) :=
    funext fun q => read_w3 m c t p q r hr
  have e4 : (fun (q : Fin 64) (u : Fin 128) => iblk m c 4 t (ix2 q u))
      = fun q u => m ((c : Thread nD τ).loc main_arg3) (ix2 (⟨q.val, by have := q.isLt; omega⟩ : Fin 256) u) :=
    funext fun q => funext fun u => (read_w4 m c t q u).trans (V_band0 m c q u _)
  have e5 : (fun (q : Fin 64) (u : Fin 128) => iblk m c 5 t (ix2 q u))
      = fun q u => m ((c : Thread nD τ).loc main_arg3) (ix2 (⟨64 + q.val, by have := q.isLt; omega⟩ : Fin 256) u) :=
    funext fun q => funext fun u => (read_w5 m c t q u).trans (V_band1 m c q u _)
  have e6 : (fun (q : Fin 64) (u : Fin 128) => iblk m c 6 t (ix2 q u))
      = fun q u => m ((c : Thread nD τ).loc main_arg3) (ix2 (⟨128 + q.val, by have := q.isLt; omega⟩ : Fin 256) u) :=
    funext fun q => funext fun u => (read_w6 m c t q u).trans (V_band2 m c q u _)
  have e7 : (fun (q : Fin 64) (u : Fin 128) => iblk m c 7 t (ix2 q u))
      = fun q u => m ((c : Thread nD τ).loc main_arg3) (ix2 (⟨192 + q.val, by have := q.isLt; omega⟩ : Fin 256) u) :=
    funext fun q => funext fun u => (read_w7 m c t q u).trans (V_band3 m c q u _)
  have e8 : (fun u : Fin 128 => iblk m c 8 t (ix2 (0 : Fin 1) u)) = fun u => m ((c : Thread nD τ).loc main_arg4) (ix1 u) :=
    funext fun u => (read_w8 m c t 0 u).trans (V_row36 m c u)
  have e9 : (fun (j u : Fin 128) => iblk m c 9 t (ix2 j u)) = fun j u => V m c main_arg5 (ix2 j u) :=
    funext fun j => funext fun u => read_w9 m c t j u
  have e10 : (fun u : Fin 128 => iblk m c 10 t (ix2 (0 : Fin 1) u)) = fun u => m ((c : Thread nD τ).loc main_arg6) (ix1 u) :=
    funext fun u => (read_w10 m c t 0 u).trans (V_row37 m c u)
  have e11 : (fun u : Fin 128 => iblk m c 11 t (ix2 (0 : Fin 1) u)) = fun u => m ((c : Thread nD τ).loc main_arg7) (ix1 u) :=
    funext fun u => (read_w11 m c t 0 u).trans (V_row38 m c u)
  have e12 : (fun u : Fin 128 => iblk m c 12 t (ix2 (0 : Fin 1) u)) = fun u => m ((c : Thread nD τ).loc main_arg8) (ix1 u) :=
    funext fun u => (read_w12 m c t 0 u).trans (V_row39 m c u)
  rw [e0, e1, e2, e3, e4, e5, e6, e7, e8, e9, e10, e11, e12]
  rfl

theorem hz : (![0, 0] : Fin 2 → Nat) = fun _ => 0 := funext fun a => by fin_cases a <;> rfl

/-- What point t writes back is block t of `G`. -/
theorem flushed_eq (c : Dev nD) (t : Fin cfg0.N) :
    (dats m 0 c).flushed 13 t = ((cfg0.win 13).blk t).view.read (Elt Ideal) (G m c) := by
  rw [Value.flushed13]
  unfold out0_13
  rw [View.canon_unit_zero hz]
  simp only [View.ld_unit_zero (S := S5000x64) hz, View.ld_unit_zero (S := S64x128) hz, View.ld_unit_zero (S := S1x128) hz,
    View.ld_unit_zero (S := S128x128) hz]
  funext y
  obtain ⟨p, o, rfl⟩ : ∃ (p : Fin 5000) (o : Fin 128), y = ix2 p o := ⟨y 0, y 1, eq_ix2 y⟩
  obtain ⟨-, -, -, -, -, -, -, -, g1, g0⟩ := idx_stream t
  have hN : cfg0.N = 200 := N_0
  have hr : win0_13.index t (0 : Fin 2) * 5000 + p.val < 1000000 := by
    have := t.isLt; have := p.isLt; omega
  refine (block_entry m c t p o ⟨_, hr⟩ rfl).trans ?_
  show G m c (ix2 ⟨_, hr⟩ o) = G m c (((cfg0.win 13).blk t).view.emb (ix2 p o))
  refine congrArg _ (funext fun a => Fin.ext ?_)
  match a with
  | ⟨0, _⟩ => show win0_13.index t (0 : Fin 2) * 5000 + p.val = win0_13.index t (0 : Fin 2) * 5000 + 1 * p.val; omega
  | ⟨1, _⟩ => show o.val = win0_13.index t (1 : Fin 2) * 128 + 1 * o.val; omega

/-- An index of the result array lies in point t's block iff each coordinate lies in the block's range on its axis. -/
theorem mem_blk (t : Fin cfg0.N) (i : S1000000x128.Idx) :
    i ∈ ((cfg0.win 13).blk t).view.set ↔ ∀ a : Fin 2, win0_13.index t a * S5000x128.size a ≤ (i a).val
      ∧ (i a).val < win0_13.index t a * S5000x128.size a + S5000x128.size a := by
  show i ∈ ((View.whole main_v40).slice (win0_13.rect t)).set ↔ _
  rw [View.set_slice_whole, Rect.mem_set_unit]
  exact Iff.rfl

/-- Row r lies in the block of point r / 5000: the 200 blocks cover the array. -/
theorem cover (i : S1000000x128.Idx) :
    ∃ t : Fin cfg0.N, (cfg0.win 13).flush t = true ∧ i ∈ ((cfg0.win 13).blk t).view.set := by
  have hi0 : (i 0).val < 1000000 := (i 0).isLt
  have hi1 : (i 1).val < 128 := (i 1).isLt
  have hN : cfg0.N = 200 := N_0
  have ht : (i 0).val / 5000 < cfg0.N := by rw [hN]; omega
  obtain ⟨-, -, -, -, -, -, -, -, g1, g0⟩ := idx_stream ⟨(i 0).val / 5000, ht⟩
  have g0' : win0_13.index ⟨(i 0).val / 5000, ht⟩ (0 : Fin 2) = (i 0).val / 5000 := g0
  refine ⟨⟨(i 0).val / 5000, ht⟩, flush0_13 _, ?_⟩
  rw [mem_blk]
  intro a
  match a with
  | ⟨0, _⟩ =>
    show win0_13.index ⟨(i 0).val / 5000, ht⟩ (0 : Fin 2) * 5000 ≤ (i 0).val
      ∧ (i 0).val < win0_13.index ⟨(i 0).val / 5000, ht⟩ (0 : Fin 2) * 5000 + 5000
    omega
  | ⟨1, _⟩ =>
    show win0_13.index ⟨(i 0).val / 5000, ht⟩ (1 : Fin 2) * 128 ≤ (i 1).val
      ∧ (i 1).val < win0_13.index ⟨(i 0).val / 5000, ht⟩ (1 : Fin 2) * 128 + 128
    omega

/-- So the result array ends holding `G`. -/
theorem final (c : Dev nD) : (dats m 0 c).arrAt 13 cfg0.N = G m c :=
  (dats m 0 c).arrAt_eq_of_cover 13 (G m c) (fun t _ => flushed_eq m c t) (cover)

/-- `G` over the arguments' launch contents where the region reads an argument directly. -/
theorem G_eq (c : Dev nD) : G m c
    = edgeArray (m ((c : Thread nD τ).loc main_arg1)) (V m c main_v17) (V m c main_v10) (V m c main_v31) (m ((c : Thread nD τ).loc main_arg3))
        (m ((c : Thread nD τ).loc main_arg4)) (m ((c : Thread nD τ).loc main_arg5)) (m ((c : Thread nD τ).loc main_arg6)) (m ((c : Thread nD τ).loc main_arg7)) (m ((c : Thread nD τ).loc main_arg8)) := by
  unfold G
  rw [V_main_arg1, V_main_arg5]

/-- The kernel's run, read: the result array at `G`, the arguments unchanged. -/
theorem run : θ_run defs (onTc (τ := τ) (main (F := Ideal))) ⟨m, fun _ => 0, ρ⟩ fun r => ∀ c : Dev nD,
      r.2.mem ((c : Thread nD τ).loc main_v40) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.Arr

end
-- ==== Proof.LibFourBands.lean ====
/-
  Four bands of 64.  A sum over 256 indices is the sum over the first 64, plus the next 64, plus the next, plus the last
  (in any commutative monoid: only associativity is used).  And four `a × 64` arrays set side by side along the columns
  into an `a × 256` array read, at column `64·b + q`, the b-th array at column `q`.  Together they turn one product with a
  256-row matrix into four products with its 64-row bands.  Nothing here knows a program.
-/
import Idealize.ShloMosaic.Lib.ValueIdx
import Idealize.ShloMosaic.Lib.Pipeline.Value

noncomputable section

open scoped BigOperators

namespace Cert.FourBands

open Idealize.ShloMosaic Idealize.ShloMosaic.ValueIdx

/-- A sum over 256 indices is the sum over the first 64, plus the next 64, plus the next, plus the last: addition
    in a commutative monoid needs nothing more. -/
theorem sum_four_blocks {M : Type*} [AddCommMonoid M] (f : Fin 256 → M) :
    ∑ k : Fin 256, f k
      = (((∑ q : Fin 64, f ⟨q.val, by have := q.isLt; omega⟩) + ∑ q : Fin 64, f ⟨64 + q.val, by have := q.isLt; omega⟩)
          + ∑ q : Fin 64, f ⟨128 + q.val, by have := q.isLt; omega⟩) + ∑ q : Fin 64, f ⟨192 + q.val, by have := q.isLt; omega⟩ := by
  refine (Fin.sum_univ_add (a := 192) (b := 64) f).trans ?_
  refine congrArg₂ (· + ·) ?_ (Finset.sum_congr rfl fun q _ => congrArg f (Fin.ext rfl))
  refine (Fin.sum_univ_add (a := 128) (b := 64) fun i : Fin 192 => f (Fin.castAdd 64 i)).trans ?_
  refine congrArg₂ (· + ·) ?_ (Finset.sum_congr rfl fun q _ => congrArg f (Fin.ext rfl))
  refine (Fin.sum_univ_add (a := 64) (b := 64) fun i : Fin 128 => f (Fin.castAdd 64 (Fin.castAdd 64 i))).trans ?_
  exact congrArg₂ (· + ·) (Finset.sum_congr rfl fun q _ => congrArg f (Fin.ext rfl))
    (Finset.sum_congr rfl fun q _ => congrArg f (Fin.ext rfl))

variable {α : Type}

/-- Column `0 + q` of four `a × 64` arrays set side by side is column `q` of the first one. -/
theorem concat4_apply_0 {a : ℕ} (x0 x1 x2 x3 : (⟨2, ![a, 64]⟩ : Shape).Idx → α)
    (h : Shape.Concatenates (([⟨⟨2, ![a, 64]⟩, x0⟩, ⟨⟨2, ![a, 64]⟩, x1⟩, ⟨⟨2, ![a, 64]⟩, x2⟩, ⟨⟨2, ![a, 64]⟩, x3⟩] :
      List ((s : Shape) × (s.Idx → α))).map (·.1)) ⟨2, ![a, 256]⟩ 1)
    (r : Fin a) (q : Fin 64) (k : Fin 256) (hk : k.val = 0 + q.val) :
    concatenate ⟨2, ![a, 256]⟩ 1 [⟨⟨2, ![a, 64]⟩, x0⟩, ⟨⟨2, ![a, 64]⟩, x1⟩, ⟨⟨2, ![a, 64]⟩, x2⟩, ⟨⟨2, ![a, 64]⟩, x3⟩] h (ix2 r k)
      = x0 (ix2 r q) := by
  refine concatenate_apply_piece 1 _ h (ix2 r k) 0 (by show 0 < 4; omega) ⟨2, ![a, 64]⟩ x0 rfl rfl 0 rfl (ix2 r q) ?_ ?_
  · intro ax hax
    match ax with
    | ⟨0, _⟩ => rfl
    | ⟨1, _⟩ => exact absurd rfl hax
  · show 0 + q.val = k.val
    omega

/-- Column `64 + q` of four `a × 64` arrays set side by side is column `q` of the second one. -/
theorem concat4_apply_1 {a : ℕ} (x0 x1 x2 x3 : (⟨2, ![a, 64]⟩ : Shape).Idx → α)
    (h : Shape.Concatenates (([⟨⟨2, ![a, 64]⟩, x0⟩, ⟨⟨2, ![a, 64]⟩, x1⟩, ⟨⟨2, ![a, 64]⟩, x2⟩, ⟨⟨2, ![a, 64]⟩, x3⟩] :
      List ((s : Shape) × (s.Idx → α))).map (·.1)) ⟨2, ![a, 256]⟩ 1)
    (r : Fin a) (q : Fin 64) (k : Fin 256) (hk : k.val = 64 + q.val) :
    concatenate ⟨2, ![a, 256]⟩ 1 [⟨⟨2, ![a, 64]⟩, x0⟩, ⟨⟨2, ![a, 64]⟩, x1⟩, ⟨⟨2, ![a, 64]⟩, x2⟩, ⟨⟨2, ![a, 64]⟩, x3⟩] h (ix2 r k)
      = x1 (ix2 r q) := by
  refine concatenate_apply_piece 1 _ h (ix2 r k) 1 (by show 1 < 4; omega) ⟨2, ![a, 64]⟩ x1 rfl rfl 64 rfl (ix2 r q) ?_ ?_
  · intro ax hax
    match ax with
    | ⟨0, _⟩ => rfl
    | ⟨1, _⟩ => exact absurd rfl hax
  · show 64 + q.val = k.val
    omega

/-- Column `128 + q` of four `a × 64` arrays set side by side is column `q` of the third one. -/
theorem concat4_apply_2 {a : ℕ} (x0 x1 x2 x3 : (⟨2, ![a, 64]⟩ : Shape).Idx → α)
    (h : Shape.Concatenates (([⟨⟨2, ![a, 64]⟩, x0⟩, ⟨⟨2, ![a, 64]⟩, x1⟩, ⟨⟨2, ![a, 64]⟩, x2⟩, ⟨⟨2, ![a, 64]⟩, x3⟩] :
      List ((s : Shape) × (s.Idx → α))).map (·.1)) ⟨2, ![a, 256]⟩ 1)
    (r : Fin a) (q : Fin 64) (k : Fin 256) (hk : k.val = 128 + q.val) :
    concatenate ⟨2, ![a, 256]⟩ 1 [⟨⟨2, ![a, 64]⟩, x0⟩, ⟨⟨2, ![a, 64]⟩, x1⟩, ⟨⟨2, ![a, 64]⟩, x2⟩, ⟨⟨2, ![a, 64]⟩, x3⟩] h (ix2 r k)
      = x2 (ix2 r q) := by
  refine concatenate_apply_piece 1 _ h (ix2 r k) 2 (by show 2 < 4; omega) ⟨2, ![a, 64]⟩ x2 rfl rfl 128 rfl (ix2 r q) ?_ ?_
  · intro ax hax
    match ax with
    | ⟨0, _⟩ => rfl
    | ⟨1, _⟩ => exact absurd rfl hax
  · show 128 + q.val = k.val
    omega

/-- Column `192 + q` of four `a × 64` arrays set side by side is column `q` of the fourth one. -/
theorem concat4_apply_3 {a : ℕ} (x0 x1 x2 x3 : (⟨2, ![a, 64]⟩ : Shape).Idx → α)
    (h : Shape.Concatenates (([⟨⟨2, ![a, 64]⟩, x0⟩, ⟨⟨2, ![a, 64]⟩, x1⟩, ⟨⟨2, ![a, 64]⟩, x2⟩, ⟨⟨2, ![a, 64]⟩, x3⟩] :
      List ((s : Shape) × (s.Idx → α))).map (·.1)) ⟨2, ![a, 256]⟩ 1)
    (r : Fin a) (q : Fin 64) (k : Fin 256) (hk : k.val = 192 + q.val) :
    concatenate ⟨2, ![a, 256]⟩ 1 [⟨⟨2, ![a, 64]⟩, x0⟩, ⟨⟨2, ![a, 64]⟩, x1⟩, ⟨⟨2, ![a, 64]⟩, x2⟩, ⟨⟨2, ![a, 64]⟩, x3⟩] h (ix2 r k)
      = x3 (ix2 r q) := by
  refine concatenate_apply_piece 1 _ h (ix2 r k) 3 (by show 3 < 4; omega) ⟨2, ![a, 64]⟩ x3 rfl rfl 192 rfl (ix2 r q) ?_ ?_
  · intro ax hax
    match ax with
    | ⟨0, _⟩ => rfl
    | ⟨1, _⟩ => exact absurd rfl hax
  · show 192 + q.val = k.val
    omega

end Cert.FourBands

end
-- ==== Proof.RefRow.lean ====
/-
  The reference at one entry of its 1000000 × 128 result.  Its first layer is ONE product of the 1000000 × 256 array
  made of the four feature arrays set side by side with the whole 256 × 128 weight matrix: at (r, j) a sum over 256
  indices, which splits into four sums over 64 — band b of the side-by-side array is feature array b, band b of the
  weight matrix its rows 64·b … 64·b + 63.  From there on (bias, clip, second product, bias, clip, mean, variance,
  reciprocal root, scale, shift) the reference applies to row r the same operations as the row function; its row sums
  start from the zero word, which adds nothing.
-/
import proofs.«158793_j19078244729180_1_alg».proof.Proof.Gen.ReferenceIdeal.Read
import proofs.«158793_j19078244729180_1_alg».proof.Proof.RowSpec
import proofs.«158793_j19078244729180_1_alg».proof.Proof.LibFourBands

noncomputable section

open scoped BigOperators

namespace Cert.ReferenceIdeal.RefRow

open Cert.ReferenceIdeal Cert.ReferenceIdeal.Gen Cert.ReferenceIdeal.Read Idealize.ShloMosaic Idealize.ShloMosaic.ValueIdx
open Cert.EdgeRow Cert.FourBands

/-! ### The operand indices the reference's operations read, at an entry (r, j), as indices built from coordinates -/

theorem lidx33 (r : Fin 1000000) (j : Fin 128) (k : Fin 256) : lidx_main_v33 (ix2 r j) k = ix2 r k :=
  funext fun a => match a with | ⟨0, _⟩ => rfl | ⟨1, _⟩ => rfl
theorem ridx33 (r : Fin 1000000) (j : Fin 128) (k : Fin 256) : ridx_main_v33 (ix2 r j) k = ix2 k j :=
  funext fun a => match a with | ⟨0, _⟩ => rfl | ⟨1, _⟩ => rfl
theorem idx3435 (r : Fin 1000000) (j : Fin 128) : idx_main_v34 (idx_main_v35 (ix2 r j)) = ix1 j :=
  funext fun a => match a with | ⟨0, _⟩ => rfl
theorem lidx38 (r : Fin 1000000) (j : Fin 128) (k : Fin 128) : lidx_main_v38 (ix2 r j) k = ix2 r k :=
  funext fun a => match a with | ⟨0, _⟩ => rfl | ⟨1, _⟩ => rfl
theorem ridx38 (r : Fin 1000000) (j : Fin 128) (k : Fin 128) : ridx_main_v38 (ix2 r j) k = ix2 k j :=
  funext fun a => match a with | ⟨0, _⟩ => rfl | ⟨1, _⟩ => rfl
theorem idx3940 (r : Fin 1000000) (j : Fin 128) : idx_main_v39 (idx_main_v40 (ix2 r j)) = ix1 j :=
  funext fun a => match a with | ⟨0, _⟩ => rfl
theorem idx6162 (r : Fin 1000000) (j : Fin 128) : idx_main_v61 (idx_main_v62 (ix2 r j)) = ix1 j :=
  funext fun a => match a with | ⟨0, _⟩ => rfl
theorem idx6465 (r : Fin 1000000) (j : Fin 128) : idx_main_v64 (idx_main_v65 (ix2 r j)) = ix1 j :=
  funext fun a => match a with | ⟨0, _⟩ => rfl
theorem idx59 (r : Fin 1000000) (j : Fin 128) : idx_main_v59 (ix2 r j) = ix2 r (0 : Fin 1) :=
  funext fun a => match a with | ⟨0, _⟩ => rfl | ⟨1, _⟩ => rfl
theorem idx54 (r : Fin 1000000) (j : Fin 128) : idx_main_v54 (ix2 r j) = ix2 r (0 : Fin 1) :=
  funext fun a => match a with | ⟨0, _⟩ => rfl | ⟨1, _⟩ => rfl
theorem idx47 (r : Fin 1000000) (j : Fin 128) : idx_main_v47 (ix2 r j) = ix2 r (0 : Fin 1) :=
  funext fun a => match a with | ⟨0, _⟩ => rfl | ⟨1, _⟩ => rfl
theorem idx51 (r : Fin 1000000) (z : Fin 1) : idx_main_v51 (ix2 r z) = ix1 r :=
  funext fun a => match a with | ⟨0, _⟩ => rfl
theorem idx44 (r : Fin 1000000) (z : Fin 1) : idx_main_v44 (ix2 r z) = ix1 r :=
  funext fun a => match a with | ⟨0, _⟩ => rfl
theorem idx50 (r : Fin 1000000) (k : Fin 128) : idx_main_v50 (ix1 r) k = ix2 r k :=
  funext fun a => match a with | ⟨0, _⟩ => rfl | ⟨1, _⟩ => rfl
theorem idx43 (r : Fin 1000000) (k : Fin 128) : idx_main_v43 (ix1 r) k = ix2 r k :=
  funext fun a => match a with | ⟨0, _⟩ => rfl | ⟨1, _⟩ => rfl

variable (x0 : (⟨S100000x64, .f32⟩ : BufTy).Contents (Elt Ideal)) (x1 : (⟨S1000000x64, .f32⟩ : BufTy).Contents (Elt Ideal))
  (x2 : (⟨S64x64, .f32⟩ : BufTy).Contents (Elt Ideal)) (x3 : (⟨S256x128, .f32⟩ : BufTy).Contents (Elt Ideal))
  (x4 : (⟨S128, .f32⟩ : BufTy).Contents (Elt Ideal)) (x5 : (⟨S128x128, .f32⟩ : BufTy).Contents (Elt Ideal))
  (x6 x7 x8 : (⟨S128, .f32⟩ : BufTy).Contents (Elt Ideal)) (x9 : (⟨S2x1000000, .i32⟩ : BufTy).Contents (Elt Ideal))
  (x10 : (⟨S100000, .i32⟩ : BufTy).Contents (Elt Ideal))

/-! ### The side-by-side array, band by band -/

theorem v32_piece0 (r : Fin 1000000) (q : Fin 64) (hq : 0 + q.val < 256) :
    val_main_v32 (F := Ideal) x0 x1 x2 x9 x10 (ix2 r (⟨0 + q.val, hq⟩ : Fin 256)) = x1 (ix2 r q) :=
  concat4_apply_0 x1 (val_main_v17 (F := Ideal) x0 x9) (val_main_v10 (F := Ideal) x0 x9) (val_main_v31 (F := Ideal) x2 x9 x10) _ r q ⟨0 + q.val, hq⟩ rfl

theorem v32_piece1 (r : Fin 1000000) (q : Fin 64) (hq : 64 + q.val < 256) :
    val_main_v32 (F := Ideal) x0 x1 x2 x9 x10 (ix2 r (⟨64 + q.val, hq⟩ : Fin 256)) = val_main_v17 (F := Ideal) x0 x9 (ix2 r q) :=
  concat4_apply_1 x1 (val_main_v17 (F := Ideal) x0 x9) (val_main_v10 (F := Ideal) x0 x9) (val_main_v31 (F := Ideal) x2 x9 x10) _ r q ⟨64 + q.val, hq⟩ rfl

theorem v32_piece2 (r : Fin 1000000) (q : Fin 64) (hq : 128 + q.val < 256) :
    val_main_v32 (F := Ideal) x0 x1 x2 x9 x10 (ix2 r (⟨128 + q.val, hq⟩ : Fin 256)) = val_main_v10 (F := Ideal) x0 x9 (ix2 r q) :=
  concat4_apply_2 x1 (val_main_v17 (F := Ideal) x0 x9) (val_main_v10 (F := Ideal) x0 x9) (val_main_v31 (F := Ideal) x2 x9 x10) _ r q ⟨128 + q.val, hq⟩ rfl

theorem v32_piece3 (r : Fin 1000000) (q : Fin 64) (hq : 192 + q.val < 256) :
    val_main_v32 (F := Ideal) x0 x1 x2 x9 x10 (ix2 r (⟨192 + q.val, hq⟩ : Fin 256)) = val_main_v31 (F := Ideal) x2 x9 x10 (ix2 r q) :=
  concat4_apply_3 x1 (val_main_v17 (F := Ideal) x0 x9) (val_main_v10 (F := Ideal) x0 x9) (val_main_v31 (F := Ideal) x2 x9 x10) _ r q ⟨192 + q.val, hq⟩ rfl

/-! ### The three stages at row r -/

/-- The reference's first layer at (r, j) is the first layer of row r. -/
theorem ref_layer1 (r : Fin 1000000) (j : Fin 128) :
    val_main_v37 (F := Ideal) x0 x1 x2 x3 x4 x9 x10 (ix2 r j)
      = layer1 (fun q => x1 (ix2 r q)) (fun q => val_main_v17 (F := Ideal) x0 x9 (ix2 r q)) (fun q => val_main_v10 (F := Ideal) x0 x9 (ix2 r q))
          (fun q => val_main_v31 (F := Ideal) x2 x9 x10 (ix2 r q))
          (fun q u => x3 (ix2 (⟨q.val, by have := q.isLt; omega⟩ : Fin 256) u))
          (fun q u => x3 (ix2 (⟨64 + q.val, by have := q.isLt; omega⟩ : Fin 256) u))
          (fun q u => x3 (ix2 (⟨128 + q.val, by have := q.isLt; omega⟩ : Fin 256) u))
          (fun q u => x3 (ix2 (⟨192 + q.val, by have := q.isLt; omega⟩ : Fin 256) u))
          (fun u => x4 (ix1 u)) j := by
  simp only [val_main_v37_apply, val_main_v36_apply, val_main_v35_apply, val_main_v34_apply, val_main_v33_apply,
    val_main_call0_v0_apply, val_main_call0_cst_apply, lidx33, ridx33, idx3435]
  rw [sum_four_blocks]
  have p0 : ∀ (q : Fin 64) (hq : q.val < 256), val_main_v32 (F := Ideal) x0 x1 x2 x9 x10 (ix2 r (⟨q.val, hq⟩ : Fin 256)) = x1 (ix2 r q) :=
    fun q hq => concat4_apply_0 x1 (val_main_v17 (F := Ideal) x0 x9) (val_main_v10 (F := Ideal) x0 x9) (val_main_v31 (F := Ideal) x2 x9 x10) _ r q ⟨q.val, hq⟩ (Nat.zero_add _).symm
  simp only [p0, v32_piece1, v32_piece2, v32_piece3]
  rfl

/-- The reference's second layer at (r, o) is the second layer of its first layer's row r. -/
theorem ref_layer2 (r : Fin 1000000) (o : Fin 128) :
    val_main_v42 (F := Ideal) x0 x1 x2 x3 x4 x5 x6 x9 x10 (ix2 r o)
      = layer2 (fun j => val_main_v37 (F := Ideal) x0 x1 x2 x3 x4 x9 x10 (ix2 r j)) (fun j u => x5 (ix2 j u)) (fun u => x6 (ix1 u)) o := by
  simp only [val_main_v42_apply, val_main_v41_apply, val_main_v40_apply, val_main_v39_apply, val_main_v38_apply,
    val_main_call1_v0_apply, val_main_call1_cst_apply, lidx38, ridx38, idx3940]
  rfl

set_option maxRecDepth 65536 in
/-- The reference's result at (r, o) is its second layer's row r, normalised. -/
theorem ref_norm (r : Fin 1000000) (o : Fin 128) :
    val_main_v66 (F := Ideal) x0 x1 x2 x3 x4 x5 x6 x7 x8 x9 x10 (ix2 r o)
      = rowNorm (fun u => val_main_v42 (F := Ideal) x0 x1 x2 x3 x4 x5 x6 x9 x10 (ix2 r u)) (fun u => x7 (ix1 u)) (fun u => x8 (ix1 u)) o := by
  simp only [val_main_v66_apply, val_main_v65_apply, val_main_v64_apply, val_main_v63_apply, val_main_v62_apply,
    val_main_v61_apply, val_main_v60_apply, val_main_v59_apply, val_main_v58_apply, val_main_v57_apply, val_main_v56_apply,
    val_main_cst_10_apply, val_main_v55_apply, val_main_v54_apply, val_main_v53_apply, val_main_v52_apply,
    val_main_cst_9_apply, val_main_v51_apply, val_main_v50_apply, val_main_cst_8_apply, val_main_v49_apply,
    val_main_v48_apply, val_main_v47_apply, val_main_v46_apply, val_main_v45_apply, val_main_cst_7_apply,
    val_main_v44_apply, val_main_v43_apply, val_main_cst_apply, idx43, idx44, idx47, idx50, idx51, idx54, idx59, idx6162,
    idx6465, Ideal.ofBits_def, Ideal.ofBits_zero_f32, zero_add]
  rfl

/-- The reference's result at (r, o) is entry (r, o) of the one whole-array function. -/
theorem ref_entry (r : Fin 1000000) (o : Fin 128) :
    val_main_v66 (F := Ideal) x0 x1 x2 x3 x4 x5 x6 x7 x8 x9 x10 (ix2 r o)
      = edgeEntry x1 (val_main_v17 (F := Ideal) x0 x9) (val_main_v10 (F := Ideal) x0 x9) (val_main_v31 (F := Ideal) x2 x9 x10) x3 x4 x5 x6 x7 x8 r o := by
  rw [ref_norm]
  have h2 : (fun u => val_main_v42 (F := Ideal) x0 x1 x2 x3 x4 x5 x6 x9 x10 (ix2 r u))
      = layer2 (fun j => val_main_v37 (F := Ideal) x0 x1 x2 x3 x4 x9 x10 (ix2 r j)) (fun j u => x5 (ix2 j u)) (fun u => x6 (ix1 u)) :=
    funext fun u => ref_layer2 x0 x1 x2 x3 x4 x5 x6 x9 x10 r u
  have h1 : (fun j => val_main_v37 (F := Ideal) x0 x1 x2 x3 x4 x9 x10 (ix2 r j)) = _ := funext fun j => ref_layer1 x0 x1 x2 x3 x4 x9 x10 r j
  rw [h2, h1]
  rfl

/-- The reference's result array is the one whole-array function of the arguments. -/
theorem ref_array :
    val_main_v66 (F := Ideal) x0 x1 x2 x3 x4 x5 x6 x7 x8 x9 x10
      = edgeArray x1 (val_main_v17 (F := Ideal) x0 x9) (val_main_v10 (F := Ideal) x0 x9) (val_main_v31 (F := Ideal) x2 x9 x10) x3 x4 x5 x6 x7 x8 := by
  funext i
  obtain ⟨r, o, rfl⟩ : ∃ (r : Fin 1000000) (o : Fin 128), i = ix2 r o := ⟨i 0, i 1, eq_ix2 i⟩
  exact ref_entry x0 x1 x2 x3 x4 x5 x6 x7 x8 x9 x10 r o

end Cert.ReferenceIdeal.RefRow

end
-- ==== Proof.Bridge.lean ====
/-
  The two programs compute one array.  Before its call the kernel's host code builds three per-edge feature arrays by
  row lookups — the receiver's and the sender's node features through the two rows of the edge list, and the graph's
  features through the batch index of the sender — with the very operations the reference uses for them, in the same
  order on the same arguments; so the arrays the kernel's region finds there are the reference's.  With that, the
  kernel's whole-array function and the reference's last stage are the same function of the arguments.
-/
import proofs.«158793_j19078244729180_1_alg».proof.Proof.KernelArray
import proofs.«158793_j19078244729180_1_alg».proof.Proof.RefRow

noncomputable section

namespace Cert.Bridge

open Idealize.ShloMosaic Idealize.ShloMosaic.TcCoe Idealize.SL.Sem
open Cert.KernelIdeal.Gen (V hostOps0)

variable (m : (ℓ : Loc Cert.KernelIdeal.nD Cert.KernelIdeal.τ Cert.KernelIdeal.sig) → Buf (Elt Ideal) ℓ)

set_option maxHeartbeats 4000000 in
/-- The receivers' features the region finds are the reference's. -/
theorem recv_eq (c : Dev Cert.KernelIdeal.nD) :
    (V m c Cert.KernelIdeal.main_v17 : Cert.KernelIdeal.S1000000x64.Idx → EReal)
      = Cert.ReferenceIdeal.Read.val_main_v17 (F := Ideal) (m ((c : Thread Cert.KernelIdeal.nD Cert.KernelIdeal.τ).loc Cert.KernelIdeal.main_arg0)) (m ((c : Thread Cert.KernelIdeal.nD Cert.KernelIdeal.τ).loc Cert.KernelIdeal.main_arg9)) := by
  dsimp only [V, hostOps0]
  after_results_simp
  rfl

set_option maxHeartbeats 4000000 in
/-- The senders' features the region finds are the reference's. -/
theorem send_eq (c : Dev Cert.KernelIdeal.nD) :
    (V m c Cert.KernelIdeal.main_v10 : Cert.KernelIdeal.S1000000x64.Idx → EReal)
      = Cert.ReferenceIdeal.Read.val_main_v10 (F := Ideal) (m ((c : Thread Cert.KernelIdeal.nD Cert.KernelIdeal.τ).loc Cert.KernelIdeal.main_arg0)) (m ((c : Thread Cert.KernelIdeal.nD Cert.KernelIdeal.τ).loc Cert.KernelIdeal.main_arg9)) := by
  dsimp only [V, hostOps0]
  after_results_simp
  rfl

set_option maxHeartbeats 4000000 in
/-- The graphs' features the region finds are the reference's. -/
theorem glob_eq (c : Dev Cert.KernelIdeal.nD) :
    (V m c Cert.KernelIdeal.main_v31 : Cert.KernelIdeal.S1000000x64.Idx → EReal)
      = Cert.ReferenceIdeal.Read.val_main_v31 (F := Ideal) (m ((c : Thread Cert.KernelIdeal.nD Cert.KernelIdeal.τ).loc Cert.KernelIdeal.main_arg2)) (m ((c : Thread Cert.KernelIdeal.nD Cert.KernelIdeal.τ).loc Cert.KernelIdeal.main_arg9)) (m ((c : Thread Cert.KernelIdeal.nD Cert.KernelIdeal.τ).loc Cert.KernelIdeal.main_arg10)) := by
  dsimp only [V, hostOps0]
  after_results_simp
  rfl

/-- The kernel's result array is the reference's last stage of the same arguments. -/
theorem array_eq (c : Dev Cert.KernelIdeal.nD) :
    Cert.KernelIdeal.Arr.G m c
      = Cert.ReferenceIdeal.Read.val_main_v66 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2))
          (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7))
          (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) := by
  rw [Cert.KernelIdeal.Arr.G_eq, Cert.ReferenceIdeal.RefRow.ref_array, recv_eq, send_eq, glob_eq]

end Cert.Bridge

end
-- ==== Proof.lean ====
/-
  An edge model of a graph network: for each of 1000000 edges, the edge's own 64 features, its receiver's, its sender's
  and its graph's are passed through two dense layers (256 → 128 → 128, each clipped at zero) and a layer
  normalisation over the 128 outputs.  The kernel works on blocks of 5000 edges and multiplies the four feature blocks
  by the four 64-row bands of the first weight matrix separately, adding the products; the reference sets the four
  feature arrays side by side and multiplies once by the whole matrix.  On the extended reals the two are the same
  sum of 256 products in a different grouping, and every later step is the same operation applied to the same row,
  so the two result arrays agree entry by entry (Bridge.array_eq).  The kernel's idealisation rewrote nothing, so its
  preservation claim is empty.  The three frame claims are the generated frame runs; the reference, which launches
  no kernel, has its generated run with the result dropped.
-/
import proofs.«158793_j19078244729180_1_alg».proof.Defs
import proofs.«158793_j19078244729180_1_alg».proof.Proof.Gen.Kernel
import proofs.«158793_j19078244729180_1_alg».proof.Proof.Gen.Kernel.Skeleton
import proofs.«158793_j19078244729180_1_alg».proof.Proof.Gen.Kernel.Launch
import proofs.«158793_j19078244729180_1_alg».proof.Proof.Gen.Kernel.Points
import proofs.«158793_j19078244729180_1_alg».proof.Proof.Gen.Kernel.Frame
import proofs.«158793_j19078244729180_1_alg».proof.Proof.Gen.KernelIdeal
import proofs.«158793_j19078244729180_1_alg».proof.Proof.Gen.KernelIdeal.Skeleton
import proofs.«158793_j19078244729180_1_alg».proof.Proof.Gen.KernelIdeal.Launch
import proofs.«158793_j19078244729180_1_alg».proof.Proof.Gen.KernelIdeal.Points
import proofs.«158793_j19078244729180_1_alg».proof.Proof.Gen.KernelIdeal.Frame
import proofs.«158793_j19078244729180_1_alg».proof.Proof.Gen.KernelIdeal.Value
import proofs.«158793_j19078244729180_1_alg».proof.Proof.Gen.ReferenceIdeal
import proofs.«158793_j19078244729180_1_alg».proof.Proof.Gen.ReferenceIdeal.Run
import proofs.«158793_j19078244729180_1_alg».proof.Proof.Gen.ReferenceIdeal.Read
import proofs.«158793_j19078244729180_1_alg».proof.Proof.Gen.Pre_finite_inputs
import proofs.«158793_j19078244729180_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the one whole-array function of the arguments: the kernel by its blocks covering the
    array, the reference by its run read stage by stage; the arguments agree, so the arrays do. -/
theorem algebraic : Cert.algebraic_KernelIdeal_ReferenceIdeal := by
  intro m ρ m' ρ' _ hagree
  refine ⟨fun c => Cert.KernelIdeal.Arr.G m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v66_eq, a0, a1, a2, a3, a4, a5, a6, a7, a8, a9, a10]
  exact (Cert.Bridge.array_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
